-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x117 : Shape := ⟨2, ![128, 117]⟩
abbrev S117 : Shape := ⟨1, ![117]⟩
abbrev S117x42 : Shape := ⟨2, ![117, 42]⟩
abbrev S42 : Shape := ⟨1, ![42]⟩
abbrev S42x24 : Shape := ⟨2, ![42, 24]⟩
abbrev S24 : Shape := ⟨1, ![24]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x117 : S_.BroadcastsInDim S128x117 (![] : Fin 0 → Fin S128x117.rank)
  reducesTo_S128x117_S_d0_1 : S128x117.ReducesTo [0, 1] S_
  bcast_S_S117 : S_.BroadcastsInDim S117 (![] : Fin 0 → Fin S117.rank)
  reducesTo_S117_S_d0 : S117.ReducesTo [0] S_
  bcast_S_S117x42 : S_.BroadcastsInDim S117x42 (![] : Fin 0 → Fin S117x42.rank)
  reducesTo_S117x42_S_d0_1 : S117x42.ReducesTo [0, 1] S_
  bcast_S_S42 : S_.BroadcastsInDim S42 (![] : Fin 0 → Fin S42.rank)
  reducesTo_S42_S_d0 : S42.ReducesTo [0] S_
  bcast_S_S42x24 : S_.BroadcastsInDim S42x24 (![] : Fin 0 → Fin S42x24.rank)
  reducesTo_S42x24_S_d0_1 : S42x24.ReducesTo [0, 1] S_
  bcast_S_S24 : S_.BroadcastsInDim S24 (![] : Fin 0 → Fin S24.rank)
  reducesTo_S24_S_d0 : S24.ReducesTo [0] S_

variable [Facts]

def fn_part3 {F : FTy → Type} [FloatOps F] (main_arg12 : FVec F S42x24 .f32) (main_arg13 : FVec F S24 .f32) (main_v48 : IVec S_ 1) (main_v49 : FVec F S42x24 .f32) (main_v50 : FVec F S42x24 .f32) : IVec S_ 1 :=
  let main_v51 : IVec S42x24 1 := cmpf .olt main_v49 main_v50
  let main_c_19 : IVec S_ 1 := constantI S_ 1 1#1
  let main_v52 : IVec S_ 1 := (fun x v => Host.reduce IntOp.andi x v reducesTo_S42x24_S_d0_1 h_S_) main_v51 main_c_19
  let main_v53 : IVec S_ 1 := andi main_v48 main_v52
  let main_v54 : FVec F S42x24 .f32 := Host.absf main_arg12
  let main_cst_20 : FVec F S_ .f32 := constant S_ .f32 0x7F800000#32
  let main_v55 : FVec F S42x24 .f32 := broadcastInDim S42x24 ![] bcast_S_S42x24 main_cst_20
  let main_v56 : IVec S42x24 1 := cmpf .olt main_v54 main_v55
  let main_c_21 : IVec S_ 1 := constantI S_ 1 1#1
  let main_v57 : IVec S_ 1 := (fun x v => Host.reduce IntOp.andi x v reducesTo_S42x24_S_d0_1 h_S_) main_v56 main_c_21
  let main_v58 : IVec S_ 1 := andi main_v53 main_v57
  let main_v59 : FVec F S24 .f32 := Host.absf main_arg13
  let main_cst_22 : FVec F S_ .f32 := constant S_ .f32 0x7F800000#32
  let main_v60 : FVec F S24 .f32 := broadcastInDim S24 ![] bcast_S_S24 main_cst_22
  let main_v61 : IVec S24 1 := cmpf .olt main_v59 main_v60
  let main_c_23 : IVec S_ 1 := constantI S_ 1 1#1
  let main_v62 : IVec S_ 1 := (fun x v => Host.reduce IntOp.andi x v reducesTo_S24_S_d0 h_S_) main_v61 main_c_23
  let main_v63 : IVec S_ 1 := andi main_v58 main_v62
  main_v63

def fn_part2 {F : FTy → Type} [FloatOps F] (main_arg8 : FVec F S42x24 .f32) (main_arg9 : FVec F S42x24 .f32) (main_arg10 : FVec F S24 .f32) (main_arg11 : FVec F S42x24 .f32) (main_arg12 : FVec F S42x24 .f32) (main_arg13 : FVec F S24 .f32) (main_v33 : IVec S_ 1) : IVec S_ 1 :=
  let main_v34 : FVec F S42x24 .f32 := Host.absf main_arg8
  let main_cst_12 : FVec F S_ .f32 := constant S_ .f32 0x7F800000#32
  let main_v35 : FVec F S42x24 .f32 := broadcastInDim S42x24 ![] bcast_S_S42x24 main_cst_12
  let main_v36 : IVec S42x24 1 := cmpf .olt main_v34 main_v35
  let main_c_13 : IVec S_ 1 := constantI S_ 1 1#1
  let main_v37 : IVec S_ 1 := (fun x v => Host.reduce IntOp.andi x v reducesTo_S42x24_S_d0_1 h_S_) main_v36 main_c_13
  let main_v38 : IVec S_ 1 := andi main_v33 main_v37
  let main_v39 : FVec F S42x24 .f32 := Host.absf main_arg9
  let main_cst_14 : FVec F S_ .f32 := constant S_ .f32 0x7F800000#32
  let main_v40 : FVec F S42x24 .f32 := broadcastInDim S42x24 ![] bcast_S_S42x24 main_cst_14
  let main_v41 : IVec S42x24 1 := cmpf .olt main_v39 main_v40
  let main_c_15 : IVec S_ 1 := constantI S_ 1 1#1
  let main_v42 : IVec S_ 1 := (fun x v => Host.reduce IntOp.andi x v reducesTo_S42x24_S_d0_1 h_S_) main_v41 main_c_15
  let main_v43 : IVec S_ 1 := andi main_v38 main_v42
  let main_v44 : FVec F S24 .f32 := Host.absf main_arg10
  let main_cst_16 : FVec F S_ .f32 := constant S_ .f32 0x7F800000#32
  let main_v45 : FVec F S24 .f32 := broadcastInDim S24 ![] bcast_S_S24 main_cst_16
  let main_v46 : IVec S24 1 := cmpf .olt main_v44 main_v45
  let main_c_17 : IVec S_ 1 := constantI S_ 1 1#1
  let main_v47 : IVec S_ 1 := (fun x v => Host.reduce IntOp.andi x v reducesTo_S24_S_d0 h_S_) main_v46 main_c_17
  let main_v48 : IVec S_ 1 := andi main_v43 main_v47
  let main_v49 : FVec F S42x24 .f32 := Host.absf main_arg11
  let main_cst_18 : FVec F S_ .f32 := constant S_ .f32 0x7F800000#32
  let main_v50 : FVec F S42x24 .f32 := broadcastInDim S42x24 ![] bcast_S_S42x24 main_cst_18
  fn_part3 (F := F) main_arg12 main_arg13 main_v48 main_v49 main_v50

def fn_part1 {F : FTy → Type} [FloatOps F] (main_arg5 : FVec F S117x42 .f32) (main_arg6 : FVec F S117x42 .f32) (main_arg7 : FVec F S42 .f32) (main_arg8 : FVec F S42x24 .f32) (main_arg9 : FVec F S42x24 .f32) (main_arg10 : FVec F S24 .f32) (main_arg11 : FVec F S42x24 .f32) (main_arg12 : FVec F S42x24 .f32) (main_arg13 : FVec F S24 .f32) (main_v13 : IVec S_ 1) (main_v16 : IVec S117 1) : IVec S_ 1 :=
  let main_c_5 : IVec S_ 1 := constantI S_ 1 1#1
  let main_v17 : IVec S_ 1 := (fun x v => Host.reduce IntOp.andi x v reducesTo_S117_S_d0 h_S_) main_v16 main_c_5
  let main_v18 : IVec S_ 1 := andi main_v13 main_v17
  let main_v19 : FVec F S117x42 .f32 := Host.absf main_arg5
  let main_cst_6 : FVec F S_ .f32 := constant S_ .f32 0x7F800000#32
  let main_v20 : FVec F S117x42 .f32 := broadcastInDim S117x42 ![] bcast_S_S117x42 main_cst_6
  let main_v21 : IVec S117x42 1 := cmpf .olt main_v19 main_v20
  let main_c_7 : IVec S_ 1 := constantI S_ 1 1#1
  let main_v22 : IVec S_ 1 := (fun x v => Host.reduce IntOp.andi x v reducesTo_S117x42_S_d0_1 h_S_) main_v21 main_c_7
  let main_v23 : IVec S_ 1 := andi main_v18 main_v22
  let main_v24 : FVec F S117x42 .f32 := Host.absf main_arg6
  let main_cst_8 : FVec F S_ .f32 := constant S_ .f32 0x7F800000#32
  let main_v25 : FVec F S117x42 .f32 := broadcastInDim S117x42 ![] bcast_S_S117x42 main_cst_8
  let main_v26 : IVec S117x42 1 := cmpf .olt main_v24 main_v25
  let main_c_9 : IVec S_ 1 := constantI S_ 1 1#1
  let main_v27 : IVec S_ 1 := (fun x v => Host.reduce IntOp.andi x v reducesTo_S117x42_S_d0_1 h_S_) main_v26 main_c_9
  let main_v28 : IVec S_ 1 := andi main_v23 main_v27
  let main_v29 : FVec F S42 .f32 := Host.absf main_arg7
  let main_cst_10 : FVec F S_ .f32 := constant S_ .f32 0x7F800000#32
  let main_v30 : FVec F S42 .f32 := broadcastInDim S42 ![] bcast_S_S42 main_cst_10
  let main_v31 : IVec S42 1 := cmpf .olt main_v29 main_v30
  let main_c_11 : IVec S_ 1 := constantI S_ 1 1#1
  let main_v32 : IVec S_ 1 := (fun x v => Host.reduce IntOp.andi x v reducesTo_S42_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x117 .f32) (main_arg3 : FVec F S128x117 .f32) (main_arg4 : FVec F S117 .f32) (main_arg5 : FVec F S117x42 .f32) (main_arg6 : FVec F S117x42 .f32) (main_arg7 : FVec F S42 .f32) (main_arg8 : FVec F S42x24 .f32) (main_arg9 : FVec F S42x24 .f32) (main_arg10 : FVec F S24 .f32) (main_arg11 : FVec F S42x24 .f32) (main_arg12 : FVec F S42x24 .f32) (main_arg13 : FVec F S24 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x117 .f32 := Host.absf main_arg2
  let main_cst_0 : FVec F S_ .f32 := constant S_ .f32 0x7F800000#32
  let main_v5 : FVec F S128x117 .f32 := broadcastInDim S128x117 ![] bcast_S_S128x117 main_cst_0
  let main_v6 : IVec S128x117 1 := cmpf .olt main_v4 main_v5
  let main_c_1 : IVec S_ 1 := constantI S_ 1 1#1
  let main_v7 : IVec S_ 1 := (fun x v => Host.reduce IntOp.andi x v reducesTo_S128x117_S_d0_1 h_S_) main_v6 main_c_1
  let main_v8 : IVec S_ 1 := andi main_v3 main_v7
  let main_v9 : FVec F S128x117 .f32 := Host.absf main_arg3
  let main_cst_2 : FVec F S_ .f32 := constant S_ .f32 0x7F800000#32
  let main_v10 : FVec F S128x117 .f32 := broadcastInDim S128x117 ![] bcast_S_S128x117 main_cst_2
  let main_v11 : IVec S128x117 1 := cmpf .olt main_v9 main_v10
  let main_c_3 : IVec S_ 1 := constantI S_ 1 1#1
  let main_v12 : IVec S_ 1 := (fun x v => Host.reduce IntOp.andi x v reducesTo_S128x117_S_d0_1 h_S_) main_v11 main_c_3
  let main_v13 : IVec S_ 1 := andi main_v8 main_v12
  let main_v14 : FVec F S117 .f32 := Host.absf main_arg4
  let main_cst_4 : FVec F S_ .f32 := constant S_ .f32 0x7F800000#32
  let main_v15 : FVec F S117 .f32 := broadcastInDim S117 ![] bcast_S_S117 main_cst_4
  let main_v16 : IVec S117 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x117 : Shape := ⟨2, ![128, 117]⟩
abbrev S117 : Shape := ⟨1, ![117]⟩
abbrev S117x42 : Shape := ⟨2, ![117, 42]⟩
abbrev S42 : Shape := ⟨1, ![42]⟩
abbrev S42x24 : Shape := ⟨2, ![42, 24]⟩
abbrev S24 : Shape := ⟨1, ![24]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x117 : Shape := ⟨2, ![1, 117]⟩
abbrev S50000x117 : Shape := ⟨2, ![50000, 117]⟩
abbrev S10000x128 : Shape := ⟨2, ![10000, 128]⟩
abbrev S10000x1 : Shape := ⟨2, ![10000, 1]⟩
abbrev S10000x117 : Shape := ⟨2, ![10000, 117]⟩
abbrev S800000x117 : Shape := ⟨2, ![800000, 117]⟩
abbrev S1x42 : Shape := ⟨2, ![1, 42]⟩
abbrev S50000x42 : Shape := ⟨2, ![50000, 42]⟩
abbrev S10000x42 : Shape := ⟨2, ![10000, 42]⟩
abbrev S800000x42 : Shape := ⟨2, ![800000, 42]⟩
abbrev S42x48 : Shape := ⟨2, ![42, 48]⟩
abbrev S48 : Shape := ⟨1, ![48]⟩
abbrev S42x128 : Shape := ⟨2, ![42, 128]⟩
abbrev S128 : Shape := ⟨1, ![128]⟩
abbrev S1x128 : Shape := ⟨2, ![1, 128]⟩
abbrev S50000x24 : Shape := ⟨2, ![50000, 24]⟩

abbrev nBuf : Space → Nat
  | .hbm => 95
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x117, .f32⟩
  | .hbm, ⟨3, _⟩ => ⟨S128x117, .f32⟩
  | .hbm, ⟨4, _⟩ => ⟨S117, .f32⟩
  | .hbm, ⟨5, _⟩ => ⟨S117x42, .f32⟩
  | .hbm, ⟨6, _⟩ => ⟨S117x42, .f32⟩
  | .hbm, ⟨7, _⟩ => ⟨S42, .f32⟩
  | .hbm, ⟨8, _⟩ => ⟨S42x24, .f32⟩
  | .hbm, ⟨9, _⟩ => ⟨S42x24, .f32⟩
  | .hbm, ⟨10, _⟩ => ⟨S24, .f32⟩
  | .hbm, ⟨11, _⟩ => ⟨S42x24, .f32⟩
  | .hbm, ⟨12, _⟩ => ⟨S42x24, .f32⟩
  | .hbm, ⟨13, _⟩ => ⟨S24, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000x1, .f32⟩
  | .hbm, ⟨20, _⟩ => ⟨S_, .f32⟩
  | .hbm, ⟨21, _⟩ => ⟨S50000x1, .f32⟩
  | .hbm, ⟨22, _⟩ => ⟨S800000x1, .i32⟩
  | .hbm, ⟨23, _⟩ => ⟨S50000x1, .f32⟩
  | .hbm, ⟨24, _⟩ => ⟨S_, .f32⟩
  | .hbm, ⟨25, _⟩ => ⟨S50000x1, .f32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .f32⟩
  | .hbm, ⟨30, _⟩ => ⟨S128x117, .bf16⟩
  | .hbm, ⟨31, _⟩ => ⟨S128x117, .bf16⟩
  | .hbm, ⟨32, _⟩ => ⟨S117x42, .bf16⟩
  | .hbm, ⟨33, _⟩ => ⟨S117x42, .bf16⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S1x117, .f32⟩
  | .hbm, ⟨48, _⟩ => ⟨S50000x117, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x117, .f32⟩
  | .hbm, ⟨58, _⟩ => ⟨S_, .f32⟩
  | .hbm, ⟨59, _⟩ => ⟨S50000x117, .f32⟩
  | .hbm, ⟨60, _⟩ => ⟨S800000x1, .i32⟩
  | .hbm, ⟨61, _⟩ => ⟨S50000x117, .f32⟩
  | .hbm, ⟨62, _⟩ => ⟨S1x42, .f32⟩
  | .hbm, ⟨63, _⟩ => ⟨S50000x42, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x42, .f32⟩
  | .hbm, ⟨73, _⟩ => ⟨S_, .f32⟩
  | .hbm, ⟨74, _⟩ => ⟨S50000x42, .f32⟩
  | .hbm, ⟨75, _⟩ => ⟨S800000x1, .i32⟩
  | .hbm, ⟨76, _⟩ => ⟨S50000x42, .f32⟩
  | .hbm, ⟨77, _⟩ => ⟨S42x48, .f32⟩
  | .hbm, ⟨78, _⟩ => ⟨S42x48, .f32⟩
  | .hbm, ⟨79, _⟩ => ⟨S48, .f32⟩
  | .hbm, ⟨80, _⟩ => ⟨S_, .i32⟩
  | .hbm, ⟨81, _⟩ => ⟨S_, .f32⟩
  | .hbm, ⟨82, _⟩ => ⟨S42x128, .f32⟩
  | .hbm, ⟨83, _⟩ => ⟨S42x128, .bf16⟩
  | .hbm, ⟨84, _⟩ => ⟨S_, .i32⟩
  | .hbm, ⟨85, _⟩ => ⟨S_, .f32⟩
  | .hbm, ⟨86, _⟩ => ⟨S42x128, .f32⟩
  | .hbm, ⟨87, _⟩ => ⟨S42x128, .bf16⟩
  | .hbm, ⟨88, _⟩ => ⟨S_, .i32⟩
  | .hbm, ⟨89, _⟩ => ⟨S_, .f32⟩
  | .hbm, ⟨90, _⟩ => ⟨S128, .f32⟩
  | .hbm, ⟨91, _⟩ => ⟨S1x128, .f32⟩
  | .hbm, ⟨92, _⟩ => ⟨S50000x128, .f32⟩
  | .hbm, ⟨93, _⟩ => ⟨S50000x24, .f32⟩
  | .hbm, ⟨94, _⟩ => ⟨S50000x24, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S128x117, .bf16⟩
  | .local _ .vmem, ⟨7, _⟩ => ⟨S128x117, .bf16⟩
  | .local _ .vmem, ⟨8, _⟩ => ⟨S1x117, .f32⟩
  | .local _ .vmem, ⟨9, _⟩ => ⟨S10000x117, .f32⟩
  | .local _ .vmem, ⟨10, _⟩ => ⟨S10000x117, .f32⟩
  | .local _ .vmem, ⟨11, _⟩ => ⟨S10000x117, .f32⟩
  | .local _ .vmem, ⟨12, _⟩ => ⟨S10000x117, .f32⟩
  | .local _ .vmem, ⟨13, _⟩ => ⟨S10000x1, .f32⟩
  | .local _ .vmem, ⟨14, _⟩ => ⟨S10000x1, .f32⟩
  | .local _ .vmem, ⟨15, _⟩ => ⟨S10000x117, .f32⟩
  | .local _ .vmem, ⟨16, _⟩ => ⟨S10000x117, .f32⟩
  | .local _ .vmem, ⟨17, _⟩ => ⟨S117x42, .bf16⟩
  | .local _ .vmem, ⟨18, _⟩ => ⟨S117x42, .bf16⟩
  | .local _ .vmem, ⟨19, _⟩ => ⟨S1x42, .f32⟩
  | .local _ .vmem, ⟨20, _⟩ => ⟨S10000x42, .f32⟩
  | .local _ .vmem, ⟨21, _⟩ => ⟨S10000x42, .f32⟩
  | .local _ .vmem, ⟨22, _⟩ => ⟨S10000x42, .f32⟩
  | .local _ .vmem, ⟨23, _⟩ => ⟨S10000x42, .f32⟩
  | .local _ .vmem, ⟨24, _⟩ => ⟨S10000x1, .f32⟩
  | .local _ .vmem, ⟨25, _⟩ => ⟨S10000x1, .f32⟩
  | .local _ .vmem, ⟨26, _⟩ => ⟨S10000x42, .f32⟩
  | .local _ .vmem, ⟨27, _⟩ => ⟨S10000x42, .f32⟩
  | .local _ .vmem, ⟨28, _⟩ => ⟨S42x128, .bf16⟩
  | .local _ .vmem, ⟨29, _⟩ => ⟨S42x128, .bf16⟩
  | .local _ .vmem, ⟨30, _⟩ => ⟨S1x128, .f32⟩
  | .local _ .vmem, ⟨31, _⟩ => ⟨S10000x128, .f32⟩
  | .local _ .vmem, ⟨32, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_call0_v0 : Ref sig .tc := ⟨.hbm, 81, rfl⟩
abbrev main_v53 : Ref sig .tc := ⟨.hbm, 82, rfl⟩
abbrev main_v54 : Ref sig .tc := ⟨.hbm, 83, rfl⟩
abbrev main_c_12 : Ref sig .tc := ⟨.hbm, 84, rfl⟩
abbrev main_call1_v0 : Ref sig .tc := ⟨.hbm, 85, rfl⟩
abbrev main_v55 : Ref sig .tc := ⟨.hbm, 86, rfl⟩
abbrev main_v56 : Ref sig .tc := ⟨.hbm, 87, rfl⟩
abbrev main_c_13 : Ref sig .tc := ⟨.hbm, 88, rfl⟩
abbrev main_call2_v0 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x117 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x117 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x117 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x117 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x117 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x117 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S117x42 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S117x42 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x42 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x42 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x42 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x42 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S42x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S42x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bitsLt_bf16_f32 : FTy.bits .bf16 < FTy.bits .f32
  bcast_S_S800000 : S_.BroadcastsInDim S800000 (![] : Fin 0 → Fin S800000.rank)
  bcast_S_S50000x128 : S_.BroadcastsInDim S50000x128 (![] : Fin 0 → Fin S50000x128.rank)
  shapeCasts_S117_S1x117 : S117.ShapeCasts S1x117
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x117_S128x117_0_0 : ∀ a, (![0, 0] : Fin 2 → Nat) a + S128x117.size a ≤ S128x117.size a
  h_S128x117 : 0 < S128x117.numel
  shapeCasts_S128x117_S128x117 : S128x117.ShapeCasts S128x117
  inb_S1x117_S1x117_0_0 : ∀ a, (![0, 0] : Fin 2 → Nat) a + S1x117.size a ≤ S1x117.size a
  h_S1x117 : 0 < S1x117.numel
  shapeCasts_S1x117_S1x117 : S1x117.ShapeCasts S1x117
  broadcasts_S1x117_S10000x117 : S1x117.Broadcasts S10000x117
  inb_S10000x117_S10000x117_0_0 : ∀ a, (![0, 0] : Fin 2 → Nat) a + S10000x117.size a ≤ S10000x117.size a
  h_S10000x117 : 0 < S10000x117.numel
  bcast_S_S50000x117 : S_.BroadcastsInDim S50000x117 (![] : Fin 0 → Fin S50000x117.rank)
  shapeCasts_S42_S1x42 : S42.ShapeCasts S1x42
  shapeCasts_S10000x117_S10000x117 : S10000x117.ShapeCasts S10000x117
  broadcasts_S10000x1_S10000x117 : S10000x1.Broadcasts S10000x117
  inb_S117x42_S117x42_0_0 : ∀ a, (![0, 0] : Fin 2 → Nat) a + S117x42.size a ≤ S117x42.size a
  h_S117x42 : 0 < S117x42.numel
  shapeCasts_S117x42_S117x42 : S117x42.ShapeCasts S117x42
  inb_S1x42_S1x42_0_0 : ∀ a, (![0, 0] : Fin 2 → Nat) a + S1x42.size a ≤ S1x42.size a
  h_S1x42 : 0 < S1x42.numel
  shapeCasts_S1x42_S1x42 : S1x42.ShapeCasts S1x42
  broadcasts_S1x42_S10000x42 : S1x42.Broadcasts S10000x42
  inb_S10000x42_S10000x42_0_0 : ∀ a, (![0, 0] : Fin 2 → Nat) a + S10000x42.size a ≤ S10000x42.size a
  h_S10000x42 : 0 < S10000x42.numel
  bcast_S_S50000x42 : S_.BroadcastsInDim S50000x42 (![] : Fin 0 → Fin S50000x42.rank)
  concatenates_S42x24_S42x24_S42x48_d1 : Shape.Concatenates [S42x24, S42x24] S42x48 1
  concatenates_S24_S24_S48_d0 : Shape.Concatenates [S24, S24] S48 0
  pads_S42x48_S42x128_000_0800 : S42x48.Pads (![0, 0] : Fin 2 → Nat) ![0, 80] ![0, 0] S42x128
  h_S_ : 0 < S_.numel
  pads_S48_S128_0800 : S48.Pads (![0] : Fin 1 → Nat) ![80] ![0] S128
  shapeCasts_S128_S1x128 : S128.ShapeCasts S1x128
  shapeCasts_S10000x42_S10000x42 : S10000x42.ShapeCasts S10000x42
  broadcasts_S10000x1_S10000x42 : S10000x1.Broadcasts S10000x42
  inb_S42x128_S42x128_0_0 : ∀ a, (![0, 0] : Fin 2 → Nat) a + S42x128.size a ≤ S42x128.size a
  h_S42x128 : 0 < S42x128.numel
  shapeCasts_S42x128_S42x128 : S42x128.ShapeCasts S42x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S50000x128_S50000x24_0_0 : S50000x128.Slices ![0, 0] S50000x24
  slices_S50000x128_S50000x24_0_24 : S50000x128.Slices ![0, 24] S50000x24
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x117_S10000x117_1_0_0_1_n_n_wf : DotDims.WF S10000x128 S128x117 S10000x117 [1] [0] [0] [1] [] []
  gather_S50000x117_S800000x1_S800000x117_1_0_n_n_0_1_1117_wf : GatherDims.WF S50000x117 S800000x1 S800000x117 [1] [0] [] [0] [] 1 ![1, 117]
  scatter_S50000x117_S800000x1_S800000x117_1_0_0_1_wf : ScatterDims.WF S50000x117 S800000x1 S800000x117 [1] [0] [0] 1
  dot_S10000x117_S117x42_S10000x42_1_0_0_1_n_n_wf : DotDims.WF S10000x117 S117x42 S10000x42 [1] [0] [0] [1] [] []
  gather_S50000x42_S800000x1_S800000x42_1_0_n_n_0_1_142_wf : GatherDims.WF S50000x42 S800000x1 S800000x42 [1] [0] [] [0] [] 1 ![1, 42]
  scatter_S50000x42_S800000x1_S800000x42_1_0_0_1_wf : ScatterDims.WF S50000x42 S800000x1 S800000x42 [1] [0] [0] 1
  dot_S10000x42_S42x128_S10000x128_1_0_0_1_n_n_wf : DotDims.WF S10000x42 S42x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .f32 = 32 ∨ (Rect.block (s := S50000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x117.size a ≤ S128x117.size a
  hwx0_3 : ∀ i : grid0.Coords, EltTy.bits .bf16 = 32 ∨ (Rect.block (s := S128x117) S128x117.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x117.size a ≤ S128x117.size a
  hwx0_4 : ∀ i : grid0.Coords, EltTy.bits .bf16 = 32 ∨ (Rect.block (s := S128x117) S128x117.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x117.size a ≤ S1x117.size a
  hwx0_5 : ∀ i : grid0.Coords, EltTy.bits .f32 = 32 ∨ (Rect.block (s := S1x117) S1x117.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x117.size a ≤ S50000x117.size a
  hwx0_6 : ∀ i : grid0.Coords, EltTy.bits .f32 = 32 ∨ (Rect.block (s := S50000x117) S10000x117.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x117.size a ≤ S50000x117.size a
  hwx1_0 : ∀ i : grid1.Coords, EltTy.bits .f32 = 32 ∨ (Rect.block (s := S50000x117) S10000x117.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x117.size a ≤ S50000x117.size a
  hwx1_2 : ∀ i : grid1.Coords, EltTy.bits .f32 = 32 ∨ (Rect.block (s := S50000x117) S10000x117.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S117x42.size a ≤ S117x42.size a
  hwx1_3 : ∀ i : grid1.Coords, EltTy.bits .bf16 = 32 ∨ (Rect.block (s := S117x42) S117x42.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S117x42.size a ≤ S117x42.size a
  hwx1_4 : ∀ i : grid1.Coords, EltTy.bits .bf16 = 32 ∨ (Rect.block (s := S117x42) S117x42.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x42.size a ≤ S1x42.size a
  hwx1_5 : ∀ i : grid1.Coords, EltTy.bits .f32 = 32 ∨ (Rect.block (s := S1x42) S1x42.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x42.size a ≤ S50000x42.size a
  hwx1_6 : ∀ i : grid1.Coords, EltTy.bits .f32 = 32 ∨ (Rect.block (s := S50000x42) S10000x42.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x42.size a ≤ S50000x42.size a
  hwx2_0 : ∀ i : grid2.Coords, EltTy.bits .f32 = 32 ∨ (Rect.block (s := S50000x42) S10000x42.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S50000x1.size a
  hwx2_1 : ∀ i : grid2.Coords, EltTy.bits .f32 = 32 ∨ (Rect.block (s := S50000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x42.size a ≤ S50000x42.size a
  hwx2_2 : ∀ i : grid2.Coords, EltTy.bits .f32 = 32 ∨ (Rect.block (s := S50000x42) S10000x42.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S42x128.size a ≤ S42x128.size a
  hwx2_3 : ∀ i : grid2.Coords, EltTy.bits .bf16 = 32 ∨ (Rect.block (s := S42x128) S42x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S42x128.size a ≤ S42x128.size a
  hwx2_4 : ∀ i : grid2.Coords, EltTy.bits .bf16 = 32 ∨ (Rect.block (s := S42x128) S42x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S50000x128.size a
  hwx2_6 : ∀ i : grid2.Coords, EltTy.bits .f32 = 32 ∨ (Rect.block (s := S50000x128) S10000x128.size (cc2_transform_6 i) (hinb2_6 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x117_S10000x117_1_0_0_1_n_n : DotDims S10000x128 S128x117 S10000x117 where
  lhsContracting := [1]
  rhsContracting := [0]
  lhsNonContracting := [0]
  rhsNonContracting := [1]
  lhsBatch := []
  rhsBatch := []
  wf := dot_S10000x128_S128x117_S10000x117_1_0_0_1_n_n_wf
def gather_S50000x117_S800000x1_S800000x117_1_0_n_n_0_1_1117 : GatherDims S50000x117 S800000x1 S800000x117 where
  offsetDims := [1]
  collapsedSliceDims := [0]
  operandBatchingDims := []
  startIndicesBatchingDims := []
  startIndexMap := [0]
  indexVectorDim := 1
  sliceSizes := ![1, 117]
  wf := gather_S50000x117_S800000x1_S800000x117_1_0_n_n_0_1_1117_wf
def scatter_S50000x117_S800000x1_S800000x117_1_0_0_1 : ScatterDims S50000x117 S800000x1 S800000x117 where
  updateWindowDims := [1]
  insertedWindowDims := [0]
  scatterDimsToOperandDims := [0]
  indexVectorDim := 1
  wf := scatter_S50000x117_S800000x1_S800000x117_1_0_0_1_wf
def dot_S10000x117_S117x42_S10000x42_1_0_0_1_n_n : DotDims S10000x117 S117x42 S10000x42 where
  lhsContracting := [1]
  rhsContracting := [0]
  lhsNonContracting := [0]
  rhsNonContracting := [1]
  lhsBatch := []
  rhsBatch := []
  wf := dot_S10000x117_S117x42_S10000x42_1_0_0_1_n_n_wf
def gather_S50000x42_S800000x1_S800000x42_1_0_n_n_0_1_142 : GatherDims S50000x42 S800000x1 S800000x42 where
  offsetDims := [1]
  collapsedSliceDims := [0]
  operandBatchingDims := []
  startIndicesBatchingDims := []
  startIndexMap := [0]
  indexVectorDim := 1
  sliceSizes := ![1, 42]
  wf := gather_S50000x42_S800000x1_S800000x42_1_0_n_n_0_1_142_wf
def scatter_S50000x42_S800000x1_S800000x42_1_0_0_1 : ScatterDims S50000x42 S800000x1 S800000x42 where
  updateWindowDims := [1]
  insertedWindowDims := [0]
  scatterDimsToOperandDims := [0]
  indexVectorDim := 1
  wf := scatter_S50000x42_S800000x1_S800000x42_1_0_0_1_wf
def dot_S10000x42_S42x128_S10000x128_1_0_0_1_n_n : DotDims S10000x42 S42x128 S10000x128 where
  lhsContracting := [1]
  rhsContracting := [0]
  lhsNonContracting := [0]
  rhsNonContracting := [1]
  lhsBatch := []
  rhsBatch := []
  wf := dot_S10000x42_S42x128_S10000x128_1_0_0_1_n_n_wf

abbrev win0_0 : Pipeline.Window sig grid0 :=
  Pipeline.Window.ofSpec (Memref.whole main_v25) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x117.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x117.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x117.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S10000x117.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S10000x117.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x117.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S117x42.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S117x42.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x42.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S10000x42.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S10000x42.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S10000x42.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54) S42x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S42x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x117 : Shape := ⟨2, ![128, 117]⟩
abbrev S117 : Shape := ⟨1, ![117]⟩
abbrev S117x42 : Shape := ⟨2, ![117, 42]⟩
abbrev S42 : Shape := ⟨1, ![42]⟩
abbrev S42x24 : Shape := ⟨2, ![42, 24]⟩
abbrev S24 : Shape := ⟨1, ![24]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x117 : Shape := ⟨2, ![50000, 117]⟩
abbrev S1x117 : Shape := ⟨2, ![1, 117]⟩
abbrev S800000x117 : Shape := ⟨2, ![800000, 117]⟩
abbrev S50000x42 : Shape := ⟨2, ![50000, 42]⟩
abbrev S1x42 : Shape := ⟨2, ![1, 42]⟩
abbrev S800000x42 : Shape := ⟨2, ![800000, 42]⟩
abbrev S50000x24 : Shape := ⟨2, ![50000, 24]⟩
abbrev S1x24 : Shape := ⟨2, ![1, 24]⟩

abbrev nBuf : Space → Nat
  | .hbm => 144
  | .vmem => 0
  | .smem => 0
  | _ => 0

abbrev hbmTy0_0 (i : Nat) : BufTy := match i % 128 with
  | 0 => ⟨S50000x128, .f32⟩
  | 1 => ⟨S2x800000, .i32⟩
  | 2 => ⟨S128x117, .f32⟩
  | 3 => ⟨S128x117, .f32⟩
  | 4 => ⟨S117, .f32⟩
  | 5 => ⟨S117x42, .f32⟩
  | 6 => ⟨S117x42, .f32⟩
  | 7 => ⟨S42, .f32⟩
  | 8 => ⟨S42x24, .f32⟩
  | 9 => ⟨S42x24, .f32⟩
  | 10 => ⟨S24, .f32⟩
  | 11 => ⟨S42x24, .f32⟩
  | 12 => ⟨S42x24, .f32⟩
  | 13 => ⟨S24, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S_, .f32⟩
  | 32 => ⟨S800000x1, .f32⟩
  | 33 => ⟨S_, .f32⟩
  | 34 => ⟨S50000x1, .f32⟩
  | 35 => ⟨S800000x1, .i32⟩
  | 36 => ⟨S50000x1, .f32⟩
  | 37 => ⟨S_, .f32⟩
  | 38 => ⟨S50000x1, .f32⟩
  | 39 => ⟨S50000x1, .f32⟩
  | 40 => ⟨S50000x128, .f32⟩
  | 41 => ⟨S50000x128, .f32⟩
  | 42 => ⟨S50000x117, .f32⟩
  | 43 => ⟨S50000x117, .f32⟩
  | 44 => ⟨S50000x117, .f32⟩
  | 45 => ⟨S1x117, .f32⟩
  | 46 => ⟨S50000x117, .f32⟩
  | 47 => ⟨S50000x117, .f32⟩
  | 48 => ⟨S_, .f32⟩
  | 49 => ⟨S50000x117, .f32⟩
  | 50 => ⟨S50000x117, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x117, .f32⟩
  | 60 => ⟨S_, .f32⟩
  | 61 => ⟨S50000x117, .f32⟩
  | 62 => ⟨S800000x1, .i32⟩
  | 63 => ⟨S50000x117, .f32⟩
  | 64 => ⟨S_, .f32⟩
  | 65 => ⟨S800000x1, .f32⟩
  | 66 => ⟨S_, .f32⟩
  | 67 => ⟨S50000x1, .f32⟩
  | 68 => ⟨S800000x1, .i32⟩
  | 69 => ⟨S50000x1, .f32⟩
  | 70 => ⟨S_, .f32⟩
  | 71 => ⟨S50000x1, .f32⟩
  | 72 => ⟨S50000x1, .f32⟩
  | 73 => ⟨S50000x117, .f32⟩
  | 74 => ⟨S50000x117, .f32⟩
  | 75 => ⟨S50000x42, .f32⟩
  | 76 => ⟨S50000x42, .f32⟩
  | 77 => ⟨S50000x42, .f32⟩
  | 78 => ⟨S1x42, .f32⟩
  | 79 => ⟨S50000x42, .f32⟩
  | 80 => ⟨S50000x42, .f32⟩
  | 81 => ⟨S_, .f32⟩
  | 82 => ⟨S50000x42, .f32⟩
  | 83 => ⟨S50000x42, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x42, .f32⟩
  | 93 => ⟨S_, .f32⟩
  | 94 => ⟨S50000x42, .f32⟩
  | 95 => ⟨S800000x1, .i32⟩
  | 96 => ⟨S50000x42, .f32⟩
  | 97 => ⟨S_, .f32⟩
  | 98 => ⟨S800000x1, .f32⟩
  | 99 => ⟨S_, .f32⟩
  | 100 => ⟨S50000x1, .f32⟩
  | 101 => ⟨S800000x1, .i32⟩
  | 102 => ⟨S50000x1, .f32⟩
  | 103 => ⟨S_, .f32⟩
  | 104 => ⟨S50000x1, .f32⟩
  | 105 => ⟨S50000x1, .f32⟩
  | 106 => ⟨S50000x42, .f32⟩
  | 107 => ⟨S50000x42, .f32⟩
  | 108 => ⟨S50000x24, .f32⟩
  | 109 => ⟨S50000x24, .f32⟩
  | 110 => ⟨S50000x24, .f32⟩
  | 111 => ⟨S1x24, .f32⟩
  | 112 => ⟨S50000x24, .f32⟩
  | 113 => ⟨S50000x24, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x42, .f32⟩
  | 123 => ⟨S_, .f32⟩
  | 124 => ⟨S50000x42, .f32⟩
  | 125 => ⟨S800000x1, .i32⟩
  | 126 => ⟨S50000x42, .f32⟩
  | 127 => ⟨S_, .f32⟩
  | _ => ⟨S50000x128, .f32⟩

abbrev hbmTy0_1 (i : Nat) : BufTy := match i % 128 with
  | 0 => ⟨S800000x1, .f32⟩
  | 1 => ⟨S_, .f32⟩
  | 2 => ⟨S50000x1, .f32⟩
  | 3 => ⟨S800000x1, .i32⟩
  | 4 => ⟨S50000x1, .f32⟩
  | 5 => ⟨S_, .f32⟩
  | 6 => ⟨S50000x1, .f32⟩
  | 7 => ⟨S50000x1, .f32⟩
  | 8 => ⟨S50000x42, .f32⟩
  | 9 => ⟨S50000x42, .f32⟩
  | 10 => ⟨S50000x24, .f32⟩
  | 11 => ⟨S50000x24, .f32⟩
  | 12 => ⟨S50000x24, .f32⟩
  | 13 => ⟨S1x24, .f32⟩
  | 14 => ⟨S50000x24, .f32⟩
  | 15 => ⟨S50000x24, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call1_cst : Ref sig .tc := ⟨.hbm, 81, rfl⟩
abbrev main_call1_v0 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_16 : Ref sig .tc := ⟨.hbm, 114, rfl⟩
abbrev main_v78 : Ref sig .tc := ⟨.hbm, 115, rfl⟩
abbrev main_v79 : Ref sig .tc := ⟨.hbm, 116, rfl⟩
abbrev main_c_17 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_18 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_cst_20 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_21 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S117_S1x117_1 : S117.BroadcastsInDim S1x117 (![1] : Fin 1 → Fin S1x117.rank)
  bcast_S1x117_S50000x117_0_1 : S1x117.BroadcastsInDim S50000x117 (![0, 1] : Fin 2 → Fin S50000x117.rank)
  bcast_S_S50000x117 : S_.BroadcastsInDim S50000x117 (![] : Fin 0 → Fin S50000x117.rank)
  bcast_S50000x1_S50000x117_0_1 : S50000x1.BroadcastsInDim S50000x117 (![0, 1] : Fin 2 → Fin S50000x117.rank)
  bcast_S42_S1x42_1 : S42.BroadcastsInDim S1x42 (![1] : Fin 1 → Fin S1x42.rank)
  bcast_S1x42_S50000x42_0_1 : S1x42.BroadcastsInDim S50000x42 (![0, 1] : Fin 2 → Fin S50000x42.rank)
  bcast_S_S50000x42 : S_.BroadcastsInDim S50000x42 (![] : Fin 0 → Fin S50000x42.rank)
  bcast_S50000x1_S50000x42_0_1 : S50000x1.BroadcastsInDim S50000x42 (![0, 1] : Fin 2 → Fin S50000x42.rank)
  bcast_S24_S1x24_1 : S24.BroadcastsInDim S1x24 (![1] : Fin 1 → Fin S1x24.rank)
  bcast_S1x24_S50000x24_0_1 : S1x24.BroadcastsInDim S50000x24 (![0, 1] : Fin 2 → Fin S50000x24.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x117_S50000x117_1_0_0_1_n_n_wf : DotDims.WF S50000x128 S128x117 S50000x117 [1] [0] [0] [1] [] []
  gather_S50000x117_S800000x1_S800000x117_1_0_n_n_0_1_1117_wf : GatherDims.WF S50000x117 S800000x1 S800000x117 [1] [0] [] [0] [] 1 ![1, 117]
  scatter_S50000x117_S800000x1_S800000x117_1_0_0_1_wf : ScatterDims.WF S50000x117 S800000x1 S800000x117 [1] [0] [0] 1
  dot_S50000x117_S117x42_S50000x42_1_0_0_1_n_n_wf : DotDims.WF S50000x117 S117x42 S50000x42 [1] [0] [0] [1] [] []
  gather_S50000x42_S800000x1_S800000x42_1_0_n_n_0_1_142_wf : GatherDims.WF S50000x42 S800000x1 S800000x42 [1] [0] [] [0] [] 1 ![1, 42]
  scatter_S50000x42_S800000x1_S800000x42_1_0_0_1_wf : ScatterDims.WF S50000x42 S800000x1 S800000x42 [1] [0] [0] 1
  dot_S50000x42_S42x24_S50000x24_1_0_0_1_n_n_wf : DotDims.WF S50000x42 S42x24 S50000x24 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x117_S50000x117_1_0_0_1_n_n : DotDims S50000x128 S128x117 S50000x117 where
  lhsContracting := [1]
  rhsContracting := [0]
  lhsNonContracting := [0]
  rhsNonContracting := [1]
  lhsBatch := []
  rhsBatch := []
  wf := dot_S50000x128_S128x117_S50000x117_1_0_0_1_n_n_wf
def gather_S50000x117_S800000x1_S800000x117_1_0_n_n_0_1_1117 : GatherDims S50000x117 S800000x1 S800000x117 where
  offsetDims := [1]
  collapsedSliceDims := [0]
  operandBatchingDims := []
  startIndicesBatchingDims := []
  startIndexMap := [0]
  indexVectorDim := 1
  sliceSizes := ![1, 117]
  wf := gather_S50000x117_S800000x1_S800000x117_1_0_n_n_0_1_1117_wf
def scatter_S50000x117_S800000x1_S800000x117_1_0_0_1 : ScatterDims S50000x117 S800000x1 S800000x117 where
  updateWindowDims := [1]
  insertedWindowDims := [0]
  scatterDimsToOperandDims := [0]
  indexVectorDim := 1
  wf := scatter_S50000x117_S800000x1_S800000x117_1_0_0_1_wf
def dot_S50000x117_S117x42_S50000x42_1_0_0_1_n_n : DotDims S50000x117 S117x42 S50000x42 where
  lhsContracting := [1]
  rhsContracting := [0]
  lhsNonContracting := [0]
  rhsNonContracting := [1]
  lhsBatch := []
  rhsBatch := []
  wf := dot_S50000x117_S117x42_S50000x42_1_0_0_1_n_n_wf
def gather_S50000x42_S800000x1_S800000x42_1_0_n_n_0_1_142 : GatherDims S50000x42 S800000x1 S800000x42 where
  offsetDims := [1]
  collapsedSliceDims := [0]
  operandBatchingDims := []
  startIndicesBatchingDims := []
  startIndexMap := [0]
  indexVectorDim := 1
  sliceSizes := ![1, 42]
  wf := gather_S50000x42_S800000x1_S800000x42_1_0_n_n_0_1_142_wf
def scatter_S50000x42_S800000x1_S800000x42_1_0_0_1 : ScatterDims S50000x42 S800000x1 S800000x42 where
  updateWindowDims := [1]
  insertedWindowDims := [0]
  scatterDimsToOperandDims := [0]
  indexVectorDim := 1
  wf := scatter_S50000x42_S800000x1_S800000x42_1_0_0_1_wf
def dot_S50000x42_S42x24_S50000x24_1_0_0_1_n_n : DotDims S50000x42 S42x24 S50000x24 where
  lhsContracting := [1]
  rhsContracting := [0]
  lhsNonContracting := [0]
  rhsNonContracting := [1]
  lhsBatch := []
  rhsBatch := []
  wf := dot_S50000x42_S42x24_S50000x24_1_0_0_1_n_n_wf

class Facts : Prop extends Facts₀ where

variable [Facts]
-- ==== Proof.KernelRun.lean ====
/-
  The idealized kernel program's run with its two results named.

  The program is three kernel regions among stretches of host operations.  The buffer contents at every boundary
  are a fold from the launch memory: a stretch applies its operations, a region replaces each of its arrays by what
  its write-backs leave.  The last boundary's contents are W13.  Every weakly fair execution from a memory with zero
  counters terminates without a fault, and in the final state every unscoped buffer holds what W13 says; so the two
  result arrays hold W13 at their buffers, and each argument array what it held at launch.
-/
import proofs.«177177_j69475390980563_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the results end at the last boundary's contents, the arguments as launched. -/
theorem run_results : θ_run defs (onTc (τ := τ) (main (F := F))) ⟨m, fun _ => 0, ρ⟩ (fun r => ∀ c : Dev nD,
      r.2.mem ((c.tc : Thread nD τ).loc main_v60) = W13 m ρ c (Proc.devRef .tc main_v60)
      ∧ r.2.mem ((c.tc : Thread nD τ).loc main_v61) = W13 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v60 (by decide)),
       h c _ (mem_uc main_v61 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c)⟩)

end Cert.KernelIdeal.Whole

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«177177_j69475390980563_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibRowReduce.lean ====
/-
  Reductions along the rows of an [a, b] array, read at a row, on the extended reals.

  A lane sum from the zero word is the sum of the row's entries; a lane maximum from the -∞ word is their supremum;
  and a vector [a] kept as a column [a, 1] and spread over b columns reads, at (p, q), the vector at p.  The source
  index over row p with column k inserted is (p, k).
-/
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout
import proofs.«177177_j69475390980563_2_alg».proof.Proof.LibKeepdims
import proofs.«177177_j69475390980563_2_alg».proof.Proof.LibExtremeReduce

noncomputable section

namespace Cert.LibRowReduce

open Idealize.ShloMosaic Idealize.ShloMosaic.ValueIdx

variable {a b : Nat}

/-- Over row p of an [a, b] array, the index with column k inserted is (p, k). -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A lane sum along the rows, from the zero word, at row p: the sum of the row. -/
theorem rowSum_apply (src : FVec Ideal ⟨2, ![a, b]⟩ .f32) (h : (⟨2, ![a, b]⟩ : Shape).Reduces [1] ⟨1, ![a]⟩) (p : Fin a) :
    multiReduction .add [1] ⟨1, ![a]⟩ src 0x00000000#32 h (.inl rfl) rfl (ix1 p) = ∑ q : Fin b, src (ix2 p q) :=
  (Ideal.multiReduction_add_single src 0x00000000#32 h (.inl rfl) rfl (ix1 p)).trans
    (Finset.sum_congr rfl fun k _ => congrArg src (lift_row h p k))

/-- A lane maximum along the rows, from the -∞ word, at row p: the supremum of the row. -/
theorem rowMax_apply (src : FVec Ideal ⟨2, ![a, b]⟩ .f32) (h : (⟨2, ![a, b]⟩ : Shape).Reduces [1] ⟨1, ![a]⟩) (p : Fin a) :
    multiReduction .maximumf [1] ⟨1, ![a]⟩ src 0xFF800000#32 h (.inl rfl) rfl (ix1 p) = ⨆ q : Fin b, src (ix2 p q) :=
  (ExtremeReduce.multiReduction_max_single src h (.inl rfl) rfl (ix1 p)).trans
    (iSup_congr fun k => congrArg src (lift_row h p k))

/-- A vector [a] kept as a column [a, 1] and spread over b columns reads, at (p, q), the vector at p. -/
theorem column_apply {α : Type} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) :=
  (LibKeepdims.broadcastTo_a1_ab_apply _ h2 p q).trans (LibKeepdims.shapeCast_a_a1_apply v h1 p 0)

end Cert.LibRowReduce

end
-- ==== Proof.LibSageLayers.lean ====
/-
  Two graph layers, read one node at a time on the extended reals.

  A mean-aggregating graph layer sends a node with aggregated neighbour features a and own features x to
  (a · Wl + x · Wr) + b: entry f is (∑ a d · Wl d f) + (∑ x d · Wr d f) + b f.  The first layer rectifies this (its maximum
  with zero); the second takes the log-softmax of the row: (z q − M) − log ∑ exp (z k − M), with M the row maximum.
  On the extended reals a change of float format is the identity, a matrix product accumulated into zero is the plain
  sum of products, and a reduction along the last axis is the sum or the supremum over that axis.  So a kernel's
  vector operations on a block of B nodes leave, at (p, f), the row function of node p: the lemmas below say so for
  any extents B, K, N.
-/
import Idealize.ShloMosaic.PureOps.Ideal.Laws
import Idealize.ShloMosaic.Lib.ValueIdx
import Idealize.ShloMosaic.Lib.ValueLayout
import Idealize.ShloMosaic.Lib.Pipeline.Value
import proofs.«177177_j69475390980563_2_alg».proof.Proof.LibInnerProducts
import proofs.«177177_j69475390980563_2_alg».proof.Proof.LibRowReduce

noncomputable section

namespace Cert.LibSageLayers

open Idealize.ShloMosaic Idealize.ShloMosaic.ValueIdx
open scoped BigOperators

/-! ## The row functions -/

/-- The layer before its activation, at one node: (a · Wl + x · Wr) + b, entry f, the sums associated in this order. -/
def pre {K N : ℕ} (a x : Fin K → EReal) (Wl Wr : Fin K → Fin N → EReal) (b : Fin N → EReal) (f : Fin N) : EReal :=
  ((∑ d : Fin K, a d * Wl d f) + ∑ d : Fin K, x d * Wr d f) + b f

/-- The rectified layer at one node: the maximum of the pre-activation with zero (the f32 word of zero). -/
def rectified {K N : ℕ} (a x : Fin K → EReal) (Wl Wr : Fin K → Fin N → EReal) (b : Fin N → EReal) (f : Fin N) : EReal :=
  max (pre a x Wl Wr b f) (Ideal.ofBits .f32 0x00000000#32)

/-- The log-softmax of one row: the row shifted by its maximum, minus the logarithm of the sum of the shifted row's
    exponentials. -/
def logSoftmax {n : ℕ} (z : Fin n → EReal) (q : Fin n) : EReal :=
  (z q - ⨆ k : Fin n, z k) - Ideal.log (∑ k : Fin n, Ideal.exp (z k - ⨆ j : Fin n, z j))

/-! ## A kernel's forms on a block of B nodes -/

/-- Two products into zero, added, plus the bias row [1, N] spread over the block: at (p, f) the pre-activation of
    node p.  The factors may be of any float format. -/
theorem pre_kernel_apply {B K N : ℕ} {φ₁ φ₂ φ₃ φ₄ : FTy}
    (D : DotDims ⟨2, ![B, K]⟩ ⟨2, ![K, N]⟩ ⟨2, ![B, N]⟩) (hD : D = DotDims.plain B K N)
    (y0 : FVec Ideal ⟨2, ![B, K]⟩ φ₁) (y1 : FVec Ideal ⟨2, ![B, K]⟩ φ₂)
    (wl : FVec Ideal ⟨2, ![K, N]⟩ φ₃) (wr : FVec Ideal ⟨2, ![K, N]⟩ φ₄) (b : FVec Ideal ⟨2, ![1, N]⟩ .f32)
    (hc : (⟨2, ![1, N]⟩ : Shape).ShapeCasts ⟨2, ![1, N]⟩) (hb : (⟨2, ![1, N]⟩ : Shape).Broadcasts ⟨2, ![B, N]⟩)
    (p : Fin B) (f : Fin N) :
    addf (addf (matmul D none y0 wl (constant (F := Ideal) ⟨2, ![B, N]⟩ .f32 0x00000000#32))
          (matmul D none y1 wr (constant (F := Ideal) ⟨2, ![B, N]⟩ .f32 0x00000000#32)))
        (broadcastTo ⟨2, ![B, N]⟩ (shapeCast ⟨2, ![1, N]⟩ b hc) hb) (ix2 p f)
      = pre (fun d => (y0 (ix2 p d) : EReal)) (fun d => (y1 (ix2 p d) : EReal))
          (fun d f => (wl (ix2 d f) : EReal)) (fun d f => (wr (ix2 d f) : EReal)) (fun f => b (ix2 0 f)) f := by
  show (_ + _) + _ = _
  rw [InnerProducts.matmul_zero_apply D hD none y0 wl p f, InnerProducts.matmul_zero_apply D hD none y1 wr p f,
    broadcastTo_1b_ab_apply _ hb p f, shapeCast_self b hc]
  rfl

/-- The rectified layer in a kernel's form: the pre-activation's maximum with a splat of the zero word. -/
theorem rectified_kernel_apply {B K N : ℕ} {φ₁ φ₂ φ₃ φ₄ : FTy}
    (D : DotDims ⟨2, ![B, K]⟩ ⟨2, ![K, N]⟩ ⟨2, ![B, N]⟩) (hD : D = DotDims.plain B K N)
    (y0 : FVec Ideal ⟨2, ![B, K]⟩ φ₁) (y1 : FVec Ideal ⟨2, ![B, K]⟩ φ₂)
    (wl : FVec Ideal ⟨2, ![K, N]⟩ φ₃) (wr : FVec Ideal ⟨2, ![K, N]⟩ φ₄) (b : FVec Ideal ⟨2, ![1, N]⟩ .f32)
    (hc : (⟨2, ![1, N]⟩ : Shape).ShapeCasts ⟨2, ![1, N]⟩) (hb : (⟨2, ![1, N]⟩ : Shape).Broadcasts ⟨2, ![B, N]⟩)
    (p : Fin B) (f : Fin N) :
    maximumf (addf (addf (matmul D none y0 wl (constant (F := Ideal) ⟨2, ![B, N]⟩ .f32 0x00000000#32))
            (matmul D none y1 wr (constant (F := Ideal) ⟨2, ![B, N]⟩ .f32 0x00000000#32)))
          (broadcastTo ⟨2, ![B, N]⟩ (shapeCast ⟨2, ![1, N]⟩ b hc) hb))
        (broadcast ⟨2, ![B, N]⟩ (Scalar.ofBits (F := Ideal) .f32 0x00000000#32)) (ix2 p f)
      = rectified (fun d => (y0 (ix2 p d) : EReal)) (fun d => (y1 (ix2 p d) : EReal))
          (fun d f => (wl (ix2 d f) : EReal)) (fun d f => (wr (ix2 d f) : EReal)) (fun f => b (ix2 0 f)) f := by
  show max (addf _ _ (ix2 p f)) (Ideal.ofBits .f32 0x00000000#32) = _
  rw [pre_kernel_apply D hD y0 y1 wl wr b hc hb p f]
  rfl

/-- A kernel's log-softmax along the rows of a [B, n] block: lane maximum and lane sum, each kept as a column and
    spread back over the row.  At (p, q) it is the log-softmax of row p. -/
theorem logSoftmax_kernel_apply {B n : ℕ} (z : FVec Ideal ⟨2, ![B, n]⟩ .f32)
    (h : (⟨2, ![B, n]⟩ : Shape).Reduces [1] ⟨1, ![B]⟩)
    (hc : (⟨1, ![B]⟩ : Shape).ShapeCasts ⟨2, ![B, 1]⟩) (hb : (⟨2, ![B, 1]⟩ : Shape).Broadcasts ⟨2, ![B, n]⟩)
    (p : Fin B) (q : Fin n) :
    subf (subf z (broadcastTo ⟨2, ![B, n]⟩ (shapeCast ⟨2, ![B, 1]⟩
            (multiReduction .maximumf [1] ⟨1, ![B]⟩ z 0xFF800000#32 h (.inl rfl) rfl) hc) hb))
        (broadcastTo ⟨2, ![B, n]⟩ (log (shapeCast ⟨2, ![B, 1]⟩
          (multiReduction .add [1] ⟨1, ![B]⟩
            (exp (subf z (broadcastTo ⟨2, ![B, n]⟩ (shapeCast ⟨2, ![B, 1]⟩
              (multiReduction .maximumf [1] ⟨1, ![B]⟩ z 0xFF800000#32 h (.inl rfl) rfl) hc) hb)))
            0x00000000#32 h (.inl rfl) rfl) hc)) hb) (ix2 p q)
      = logSoftmax (fun k => z (ix2 p k)) q := by
  -- the row maximum, spread back over the row, read at any entry of row p
  have hm : ∀ k : Fin n, broadcastTo ⟨2, ![B, n]⟩ (shapeCast ⟨2, ![B, 1]⟩
        (multiReduction .maximumf [1] ⟨1, ![B]⟩ z 0xFF800000#32 h (.inl rfl) rfl) hc) hb (ix2 p k)
        = ⨆ j : Fin n, z (ix2 p j) := fun k =>
    (LibRowReduce.column_apply _ hc hb p k).trans (LibRowReduce.rowMax_apply z h p)
  -- the exponential of the shifted row, at any entry of row p
  have he : ∀ k : Fin n, exp (subf z (broadcastTo ⟨2, ![B, n]⟩ (shapeCast ⟨2, ![B, 1]⟩
        (multiReduction .maximumf [1] ⟨1, ![B]⟩ z 0xFF800000#32 h (.inl rfl) rfl) hc) hb)) (ix2 p k)
        = Ideal.exp (z (ix2 p k) - ⨆ j : Fin n, z (ix2 p j)) := by
    intro k
    show Ideal.exp (z (ix2 p k) - _) = _
    rw [hm k]
  show (z (ix2 p q) - _) - _ = _
  rw [hm q, LibKeepdims.broadcastTo_a1_ab_apply _ hb p q]
  show _ - Ideal.log (shapeCast ⟨2, ![B, 1]⟩ _ hc (ix2 p (0 : Fin 1))) = _
  rw [LibKeepdims.shapeCast_a_a1_apply _ hc p 0, LibRowReduce.rowSum_apply _ h p]
  unfold logSoftmax
  exact congrArg (fun s => (z (ix2 p q) - ⨆ j : Fin n, z (ix2 p j)) - Ideal.log s) (Finset.sum_congr rfl fun k _ => he k)

/-! ## Congruence: the row functions depend on their rows entry by entry -/

theorem pre_congr {K N : ℕ} {a a' x x' : Fin K → EReal} {Wl Wl' Wr Wr' : Fin K → Fin N → EReal} {b b' : Fin N → EReal}
    (ha : ∀ d, a d = a' d) (hx : ∀ d, x d = x' d) (hl : ∀ d f, Wl d f = Wl' d f) (hr : ∀ d f, Wr d f = Wr' d f)
    (hb : ∀ f, b f = b' f) (f : Fin N) : pre a x Wl Wr b f = pre a' x' Wl' Wr' b' f := by
  obtain rfl : a = a' := funext ha
  obtain rfl : x = x' := funext hx
  obtain rfl : Wl = Wl' := funext fun d => funext (hl d)
  obtain rfl : Wr = Wr' := funext fun d => funext (hr d)
  obtain rfl : b = b' := funext hb
  rfl

theorem rectified_congr {K N : ℕ} {a a' x x' : Fin K → EReal} {Wl Wl' Wr Wr' : Fin K → Fin N → EReal} {b b' : Fin N → EReal}
    (ha : ∀ d, a d = a' d) (hx : ∀ d, x d = x' d) (hl : ∀ d f, Wl d f = Wl' d f) (hr : ∀ d f, Wr d f = Wr' d f)
    (hb : ∀ f, b f = b' f) (f : Fin N) : rectified a x Wl Wr b f = rectified a' x' Wl' Wr' b' f := by
  unfold rectified
  rw [pre_congr ha hx hl hr hb f]

theorem logSoftmax_congr {n : ℕ} {z z' : Fin n → EReal} (h : ∀ k, z k = z' k) (q : Fin n) :
    logSoftmax z q = logSoftmax z' q := by
  obtain rfl : z = z' := funext h
  rfl

/-! ## A bias vector as a row -/

/-- A bias vector [N] laid out as a row [1, N]. -/
def rowOf {N : ℕ} (b : FVec Ideal ⟨1, ![N]⟩ .f32) : FVec Ideal ⟨2, ![1, N]⟩ .f32 := fun j => b (ix1 (j 1))

theorem rowOf_apply {N : ℕ} (b : FVec Ideal ⟨1, ![N]⟩ .f32) (u : Fin 1) (f : Fin N) : rowOf b (ix2 u f) = b (ix1 f) := rfl

/-- A vector [N] recast to [1, N] is that row. -/
theorem shapeCast_eq_rowOf {N : ℕ} (b : FVec Ideal ⟨1, ![N]⟩ .f32) (h : (⟨1, ![N]⟩ : Shape).ShapeCasts ⟨2, ![1, N]⟩) :
    shapeCast ⟨2, ![1, N]⟩ b h = rowOf b := by
  funext j
  obtain ⟨u, f, rfl⟩ : ∃ (u : Fin 1) (f : Fin N), j = ix2 u f := ⟨j 0, j 1, eq_ix2 j⟩
  exact shapeCast_a_1a_apply b h u f

/-! ## The layers on whole arrays -/

/-- The rectified layer of every node: from the aggregated features A and the node features X (both [M, K]), the
    weights [K, N] and the bias row [1, N], the [M, N] array whose row r is the rectified layer of row r. -/
def hiddenArr {M K N : ℕ} (A X : FVec Ideal ⟨2, ![M, K]⟩ .f32) (Wl Wr : FVec Ideal ⟨2, ![K, N]⟩ .f32)
    (b : FVec Ideal ⟨2, ![1, N]⟩ .f32) : FVec Ideal ⟨2, ![M, N]⟩ .f32 := fun j =>
  rectified (fun d => A (ix2 (j 0) d)) (fun d => X (ix2 (j 0) d)) (fun d f => Wl (ix2 d f)) (fun d f => Wr (ix2 d f))
    (fun f => b (ix2 0 f)) (j 1)

theorem hiddenArr_apply {M K N : ℕ} (A X : FVec Ideal ⟨2, ![M, K]⟩ .f32) (Wl Wr : FVec Ideal ⟨2, ![K, N]⟩ .f32)
    (b : FVec Ideal ⟨2, ![1, N]⟩ .f32) (r : Fin M) (f : Fin N) :
    hiddenArr A X Wl Wr b (ix2 r f)
      = rectified (fun d => A (ix2 r d)) (fun d => X (ix2 r d)) (fun d f => Wl (ix2 d f)) (fun d f => Wr (ix2 d f))
          (fun f => b (ix2 0 f)) f := rfl

/-- The log-softmax layer of every node: row r is the log-softmax of the layer's row r. -/
def outArr {M K N : ℕ} (A X : FVec Ideal ⟨2, ![M, K]⟩ .f32) (Wl Wr : FVec Ideal ⟨2, ![K, N]⟩ .f32)
    (b : FVec Ideal ⟨2, ![1, N]⟩ .f32) : FVec Ideal ⟨2, ![M, N]⟩ .f32 := fun j =>
  logSoftmax (pre (fun d => A (ix2 (j 0) d)) (fun d => X (ix2 (j 0) d)) (fun d f => Wl (ix2 d f)) (fun d f => Wr (ix2 d f))
    (fun f => b (ix2 0 f))) (j 1)

theorem outArr_apply {M K N : ℕ} (A X : FVec Ideal ⟨2, ![M, K]⟩ .f32) (Wl Wr : FVec Ideal ⟨2, ![K, N]⟩ .f32)
    (b : FVec Ideal ⟨2, ![1, N]⟩ .f32) (r : Fin M) (q : Fin N) :
    outArr A X Wl Wr b (ix2 r q)
      = logSoftmax (pre (fun d => A (ix2 r d)) (fun d => X (ix2 r d)) (fun d f => Wl (ix2 d f)) (fun d f => Wr (ix2 d f))
          (fun f => b (ix2 0 f))) q := rfl

end Cert.LibSageLayers

end
-- ==== Proof.LibReciprocal.lean ====
/-
  Dividing by a number and multiplying by its reciprocal, on the extended reals.

  With the quotient that reads  x / y  as  x · y⁻¹  for every y other than zero (the inverse of an infinity being zero),
  multiplying by  1 / y  is dividing by  y : both are  x · y⁻¹ .  No finiteness of x or of y is needed, only y ≠ 0.  A
  divisor clamped from below by one, max d 1, is never zero.  The single-precision word 0x3F800000 denotes the number one.
  Mathlib and the ideal operations only.
-/
import Idealize.ShloMosaic.PureOps.Ideal
import Idealize.ShloMosaic.PureOps.Ideal.Laws

noncomputable section

namespace Cert.LibReciprocal

open Idealize.ShloMosaic

/-- The single-precision word of the number one denotes one. -/
theorem one_word : Ideal.ofBits .f32 0x3F800000#32 = (1 : EReal) := by
  simp [Ideal.ofBits, Ideal.ieee, -EReal.coe_mul]; norm_num

/-- Multiplying by the reciprocal of `y` is dividing by `y`, for every extended real `a` and every `y` other than zero
    (infinite `y` included: both sides are then `a * 0`). -/
theorem mul_recip (a y : EReal) (hy : y ≠ 0) : a * Ideal.div 1 y = Ideal.div a y := by
  unfold Ideal.div
  rw [if_neg hy, if_neg hy, one_mul]

/-- The same with the numerator spelt as the single-precision word of one. -/
theorem mul_recip_word (a y : EReal) (hy : y ≠ 0) :
    a * Ideal.div (Ideal.ofBits .f32 0x3F800000#32) y = Ideal.div a y := by
  rw [one_word, mul_recip a y hy]

/-- A maximum with the number one is not zero. -/
theorem max_one_ne_zero (d : EReal) : max d (Ideal.ofBits .f32 0x3F800000#32) ≠ 0 := by
  rw [one_word]
  have h : (0 : EReal) < max d 1 := lt_of_lt_of_le zero_lt_one (le_max_right d 1)
  exact ne_of_gt h

end Cert.LibReciprocal

end
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibInDimRows.lean ====
/-
  The host's broadcast_in_dim of a per-row quantity over a rank-3 array, read at an index (any element type):
  a vector [a] placed on axis 0 of a column [a,1,1]; a column [a,1,1] spread over [a,b,c]; and a scalar spread
  over any shape. Entry (g, ·, ·) of each reads entry g (resp. the one entry) of the operand.
-/
import Idealize.ShloMosaic.Lib.Pipeline.Value
import Idealize.ShloMosaic.Lib.ValueIdx

namespace Cert.LibInDimRows

open Idealize.ShloMosaic Idealize.ShloMosaic.ValueIdx

variable {α : Type}

/-- A vector [a] as a column [a,1,1]: entry (g, u, v) is entry g. -/
theorem vec_col_apply {a : ℕ} (h : (⟨1, ![a]⟩ : Shape).BroadcastsInDim ⟨3, ![a, 1, 1]⟩ (![0] : Fin 1 → Fin 3))
    (x : (⟨1, ![a]⟩ : Shape).Idx → α) (g : Fin a) (u v : Fin 1) :
    broadcastInDim ⟨3, ![a, 1, 1]⟩ ![0] h x (ix3 g u v) = x (ix1 g) :=
  broadcastInDim_apply _ h x _ _ (fun d => by
    match d with
    | ⟨0, _⟩ =>
      show g.val = if a = 1 then 0 else g.val
      split_ifs with h1
      · have := g.isLt; omega
      · rfl)

/-- A column [a,1,1] spread over [a,b,c]: entry (g, k, d) is entry (g, 0, 0). -/
theorem col_spread_apply {a b c : ℕ} (h : (⟨3, ![a, 1, 1]⟩ : Shape).BroadcastsInDim ⟨3, ![a, b, c]⟩ (![0, 1, 2] : Fin 3 → Fin 3))
    (x : (⟨3, ![a, 1, 1]⟩ : Shape).Idx → α) (g : Fin a) (k : Fin b) (d : Fin c) :
    broadcastInDim ⟨3, ![a, b, c]⟩ ![0, 1, 2] h x (ix3 g k d) = x (ix3 g (0 : Fin 1) (0 : Fin 1)) :=
  broadcastInDim_apply _ h x _ _ (fun e => by
    match e with
    | ⟨0, _⟩ =>
      show g.val = if a = 1 then 0 else g.val
      split_ifs with h1
      · have := g.isLt; omega
      · rfl
    | ⟨1, _⟩ => show 0 = if (1 : ℕ) = 1 then 0 else k.val; rw [if_pos rfl]
    | ⟨2, _⟩ => show 0 = if (1 : ℕ) = 1 then 0 else d.val; rw [if_pos rfl])

/-- A scalar spread over any shape: every entry is the scalar. -/
theorem scalar_spread_apply {t : Shape} (h : (⟨0, ![]⟩ : Shape).BroadcastsInDim t (![] : Fin 0 → Fin t.rank))
    (x : (⟨0, ![]⟩ : Shape).Idx → α) (i : t.Idx) : broadcastInDim t ![] h x i = x ix0 :=
  broadcastInDim_apply _ h x _ _ (fun e => e.elim0)

end Cert.LibInDimRows
-- ==== Proof.LibMeanLayers.lean ====
/-
  A mean-aggregating graph layer whose mean is taken two ways, on the extended reals.

  A node r has aggregated neighbour features agg r (a row of K sums), a clamped degree mx r and own features x r.
  One program divides the row by the degree, agg r d / mx r; another multiplies it by a reciprocal computed once,
  agg r d * (1 / mx r).  With the quotient a / y = a * y⁻¹ the two rows are the same whenever mx r is not zero, and a
  degree clamped from below by one never is.  After the mean both programs apply the same layer: entry f of node r is
  (sum over d of mean r d * Wl d f) + (sum over d of x r d * Wr d f) + b f, rectified or not.  The lemmas below read a
  block of B nodes in a kernel's vector form (two products into zero, the weights in any float format) and the whole
  graph in the host's form (two dot_general, the bias spread by two broadcasts) as that one function, for any extents.
-/
import Idealize.ShloMosaic.PureOps.Ideal.Laws
import Idealize.ShloMosaic.Lib.ValueIdx
import Idealize.ShloMosaic.Lib.ValueLayout
import Idealize.ShloMosaic.Lib.Pipeline.Value
import proofs.«177177_j69475390980563_2_alg».proof.Proof.LibSageLayers
import proofs.«177177_j69475390980563_2_alg».proof.Proof.LibInnerProducts
import proofs.«177177_j69475390980563_2_alg».proof.Proof.LibKeepdims
import proofs.«177177_j69475390980563_2_alg».proof.Proof.LibReciprocal
import proofs.«177177_j69475390980563_2_alg».proof.Proof.LibInDimLayout
import proofs.«177177_j69475390980563_2_alg».proof.Proof.LibInDimRow
import proofs.«177177_j69475390980563_2_alg».proof.Proof.LibInDimRows

noncomputable section

namespace Cert.LibMeanLayers

open Idealize.ShloMosaic Idealize.ShloMosaic.ValueIdx Cert.LibSageLayers
open scoped BigOperators

/-! ## The mean of the aggregated rows -/

/-- Row r of agg divided by entry r of the column mx. -/
def meanRows {M K : ℕ} (agg : FVec Ideal ⟨2, ![M, K]⟩ .f32) (mx : FVec Ideal ⟨2, ![M, 1]⟩ .f32) :
    FVec Ideal ⟨2, ![M, K]⟩ .f32 := fun j => Ideal.div (agg j) (mx (ix2 (j 0) (0 : Fin 1)))

theorem meanRows_apply {M K : ℕ} (agg : FVec Ideal ⟨2, ![M, K]⟩ .f32) (mx : FVec Ideal ⟨2, ![M, 1]⟩ .f32)
    (r : Fin M) (d : Fin K) : meanRows agg mx (ix2 r d) = Ideal.div (agg (ix2 r d)) (mx (ix2 r (0 : Fin 1))) := rfl

/-- The column of reciprocals 1 / mx r, the numerator spelt as the single-precision word of one. -/
def recipCol {M : ℕ} (mx : FVec Ideal ⟨2, ![M, 1]⟩ .f32) : FVec Ideal ⟨2, ![M, 1]⟩ .f32 :=
  fun j => Ideal.div (Ideal.ofBits .f32 0x3F800000#32) (mx j)

/-- A degree column clamped from below by one: the maximum of deg with the word of one. -/
def clampCol {M : ℕ} (deg : FVec Ideal ⟨2, ![M, 1]⟩ .f32) : FVec Ideal ⟨2, ![M, 1]⟩ .f32 :=
  fun j => max (deg j) (Ideal.ofBits .f32 0x3F800000#32)

/-- Multiplying a row by the reciprocal of its clamped degree is dividing it by the clamped degree. -/
theorem mul_recip_clamp {M K : ℕ} (agg : FVec Ideal ⟨2, ![M, K]⟩ .f32) (deg : FVec Ideal ⟨2, ![M, 1]⟩ .f32)
    (r : Fin M) (d : Fin K) :
    agg (ix2 r d) * recipCol (clampCol deg) (ix2 r (0 : Fin 1)) = meanRows agg (clampCol deg) (ix2 r d) :=
  LibReciprocal.mul_recip_word _ _ (LibReciprocal.max_one_ne_zero _)

/-! ## The layer on whole arrays, before its activation -/

/-- The layer of every node before activation: row r is (A r · Wl + X r · Wr) + b. -/
def preArr {M K N : ℕ} (A X : FVec Ideal ⟨2, ![M, K]⟩ .f32) (Wl Wr : FVec Ideal ⟨2, ![K, N]⟩ .f32)
    (b : FVec Ideal ⟨2, ![1, N]⟩ .f32) : FVec Ideal ⟨2, ![M, N]⟩ .f32 := fun j =>
  pre (fun d => A (ix2 (j 0) d)) (fun d => X (ix2 (j 0) d)) (fun d f => Wl (ix2 d f)) (fun d f => Wr (ix2 d f))
    (fun f => b (ix2 0 f)) (j 1)

theorem preArr_apply {M K N : ℕ} (A X : FVec Ideal ⟨2, ![M, K]⟩ .f32) (Wl Wr : FVec Ideal ⟨2, ![K, N]⟩ .f32)
    (b : FVec Ideal ⟨2, ![1, N]⟩ .f32) (r : Fin M) (f : Fin N) :
    preArr A X Wl Wr b (ix2 r f)
      = pre (fun d => A (ix2 r d)) (fun d => X (ix2 r d)) (fun d f => Wl (ix2 d f)) (fun d f => Wr (ix2 d f))
          (fun f => b (ix2 0 f)) f := rfl

/-! ## A kernel's block of B nodes: the mean by a reciprocal column, the factors narrowed on the way in -/

/-- The aggregated block times the reciprocal column spread over its columns, narrowed: at (p, d) the product. -/
theorem scaled_apply {B K : ℕ} {ψ : FTy} (x0 : FVec Ideal ⟨2, ![B, K]⟩ .f32) (x1 : FVec Ideal ⟨2, ![B, 1]⟩ .f32)
    (h0 : (⟨2, ![B, K]⟩ : Shape).ShapeCasts ⟨2, ![B, K]⟩) (h1 : (⟨2, ![B, 1]⟩ : Shape).ShapeCasts ⟨2, ![B, 1]⟩)
    (hb1 : (⟨2, ![B, 1]⟩ : Shape).Broadcasts ⟨2, ![B, K]⟩) (hlt : ψ.bits < FTy.f32.bits) (p : Fin B) (d : Fin K) :
    (truncf ψ (mulf (shapeCast ⟨2, ![B, K]⟩ x0 h0) (broadcastTo ⟨2, ![B, K]⟩ (shapeCast ⟨2, ![B, 1]⟩ x1 h1) hb1)) hlt
        : FVec Ideal ⟨2, ![B, K]⟩ ψ) (ix2 p d)
      = x0 (ix2 p d) * x1 (ix2 p (0 : Fin 1)) := by
  show shapeCast ⟨2, ![B, K]⟩ x0 h0 (ix2 p d) * broadcastTo ⟨2, ![B, K]⟩ (shapeCast ⟨2, ![B, 1]⟩ x1 h1) hb1 (ix2 p d) = _
  rw [shapeCast_self x0 h0, LibKeepdims.broadcastTo_a1_ab_apply _ hb1 p d, shapeCast_self x1 h1]

/-- The rectified layer of a block: entry (p, f) from row p of the scaled aggregate y0 and of the own features y1. -/
theorem rectified_block_apply {B K N : ℕ} {φ₁ φ₂ φ₃ φ₄ : FTy}
    (D : DotDims ⟨2, ![B, K]⟩ ⟨2, ![K, N]⟩ ⟨2, ![B, N]⟩) (hD : D = DotDims.plain B K N)
    (y0 : FVec Ideal ⟨2, ![B, K]⟩ φ₁) (y1 : FVec Ideal ⟨2, ![B, K]⟩ φ₂)
    (wl : FVec Ideal ⟨2, ![K, N]⟩ φ₃) (wr : FVec Ideal ⟨2, ![K, N]⟩ φ₄) (b : FVec Ideal ⟨2, ![1, N]⟩ .f32)
    (hl : (⟨2, ![K, N]⟩ : Shape).ShapeCasts ⟨2, ![K, N]⟩) (hr : (⟨2, ![K, N]⟩ : Shape).ShapeCasts ⟨2, ![K, N]⟩)
    (hc : (⟨2, ![1, N]⟩ : Shape).ShapeCasts ⟨2, ![1, N]⟩) (hb : (⟨2, ![1, N]⟩ : Shape).Broadcasts ⟨2, ![B, N]⟩)
    (a x : Fin B → Fin K → EReal) (ha : ∀ p d, y0 (ix2 p d) = a p d) (hx : ∀ p d, y1 (ix2 p d) = x p d)
    (p : Fin B) (f : Fin N) :
    maximumf (addf (addf (matmul D none y0 (shapeCast ⟨2, ![K, N]⟩ wl hl) (constant (F := Ideal) ⟨2, ![B, N]⟩ .f32 0x00000000#32))
            (matmul D none y1 (shapeCast ⟨2, ![K, N]⟩ wr hr) (constant (F := Ideal) ⟨2, ![B, N]⟩ .f32 0x00000000#32)))
          (broadcastTo ⟨2, ![B, N]⟩ (shapeCast ⟨2, ![1, N]⟩ b hc) hb))
        (broadcast ⟨2, ![B, N]⟩ (Scalar.ofBits (F := Ideal) .f32 0x00000000#32)) (ix2 p f)
      = rectified (a p) (x p) (fun d f => (wl (ix2 d f) : EReal)) (fun d f => (wr (ix2 d f) : EReal))
          (fun f => b (ix2 0 f)) f := by
  refine (rectified_kernel_apply D hD y0 y1 _ _ b hc hb p f).trans ?_
  exact rectified_congr (ha p) (hx p) (fun d f => by rw [shapeCast_self wl hl]) (fun d f => by rw [shapeCast_self wr hr])
    (fun _ => rfl) f

/-- The same block without the rectifier. -/
theorem pre_block_apply {B K N : ℕ} {φ₁ φ₂ φ₃ φ₄ : FTy}
    (D : DotDims ⟨2, ![B, K]⟩ ⟨2, ![K, N]⟩ ⟨2, ![B, N]⟩) (hD : D = DotDims.plain B K N)
    (y0 : FVec Ideal ⟨2, ![B, K]⟩ φ₁) (y1 : FVec Ideal ⟨2, ![B, K]⟩ φ₂)
    (wl : FVec Ideal ⟨2, ![K, N]⟩ φ₃) (wr : FVec Ideal ⟨2, ![K, N]⟩ φ₄) (b : FVec Ideal ⟨2, ![1, N]⟩ .f32)
    (hl : (⟨2, ![K, N]⟩ : Shape).ShapeCasts ⟨2, ![K, N]⟩) (hr : (⟨2, ![K, N]⟩ : Shape).ShapeCasts ⟨2, ![K, N]⟩)
    (hc : (⟨2, ![1, N]⟩ : Shape).ShapeCasts ⟨2, ![1, N]⟩) (hb : (⟨2, ![1, N]⟩ : Shape).Broadcasts ⟨2, ![B, N]⟩)
    (a x : Fin B → Fin K → EReal) (ha : ∀ p d, y0 (ix2 p d) = a p d) (hx : ∀ p d, y1 (ix2 p d) = x p d)
    (p : Fin B) (f : Fin N) :
    addf (addf (matmul D none y0 (shapeCast ⟨2, ![K, N]⟩ wl hl) (constant (F := Ideal) ⟨2, ![B, N]⟩ .f32 0x00000000#32))
            (matmul D none y1 (shapeCast ⟨2, ![K, N]⟩ wr hr) (constant (F := Ideal) ⟨2, ![B, N]⟩ .f32 0x00000000#32)))
          (broadcastTo ⟨2, ![B, N]⟩ (shapeCast ⟨2, ![1, N]⟩ b hc) hb) (ix2 p f)
      = pre (a p) (x p) (fun d f => (wl (ix2 d f) : EReal)) (fun d f => (wr (ix2 d f) : EReal))
          (fun f => b (ix2 0 f)) f := by
  refine (pre_kernel_apply D hD y0 y1 _ _ b hc hb p f).trans ?_
  exact pre_congr (ha p) (hx p) (fun d f => by rw [shapeCast_self wl hl]) (fun d f => by rw [shapeCast_self wr hr])
    (fun _ => rfl) f

/-! ## The host's form on the whole graph: the mean by a divide -/

/-- The host's layer before activation: (agg / mx) · Wl + X · Wr + b, the column mx and the bias vector spread by
    broadcast_in_dim.  As a whole array it is preArr of the mean rows. -/
theorem pre_host_eq {M K N : ℕ} (D : DotDims ⟨2, ![M, K]⟩ ⟨2, ![K, N]⟩ ⟨2, ![M, N]⟩) (hD : D = DotDims.plain M K N)
    (agg X : FVec Ideal ⟨2, ![M, K]⟩ .f32) (mx : FVec Ideal ⟨2, ![M, 1]⟩ .f32) (Wl Wr : FVec Ideal ⟨2, ![K, N]⟩ .f32)
    (b : FVec Ideal ⟨1, ![N]⟩ .f32)
    (hmx : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral D none (Host.divf (F := Ideal) agg (broadcastInDim ⟨2, ![M, K]⟩ ![0, 1] hmx mx)) Wl)
          (Host.dotGeneral D none X Wr))
        (broadcastInDim ⟨2, ![M, N]⟩ ![0, 1] h2 (broadcastInDim ⟨2, ![1, N]⟩ ![1] h1 b))
      = preArr (meanRows agg mx) X Wl Wr (rowOf b) := by
  funext j
  obtain ⟨r, f, rfl⟩ : ∃ (r : Fin M) (f : Fin N), j = ix2 r f := ⟨j 0, j 1, eq_ix2 j⟩
  show (_ + _) + _ = _
  rw [InnerProducts.dotGeneral_apply D hD none _ Wl r f, InnerProducts.dotGeneral_apply D hD none X Wr r f,
    LibInDimRow.inDim_1b_ab_apply _ h2 r f, LibInDimRow.inDim_b_1b_apply b h1 0 f, preArr_apply]
  unfold pre
  refine congrArg (fun s => (s + ∑ d : Fin K, X (ix2 r d) * Wr (ix2 d f)) + rowOf b (ix2 0 f)) ?_
  refine Finset.sum_congr rfl fun d _ => ?_
  show Ideal.div (agg (ix2 r d)) (broadcastInDim ⟨2, ![M, K]⟩ ![0, 1] hmx mx (ix2 r d)) * _ = _
  rw [LibInDimLayout.inDim_a1_ab_apply mx hmx r d]
  rfl

/-- The host's rectified layer: the layer's maximum with a zero spread over the array. -/
theorem hidden_host_eq {M K N : ℕ} (D : DotDims ⟨2, ![M, K]⟩ ⟨2, ![K, N]⟩ ⟨2, ![M, N]⟩) (hD : D = DotDims.plain M K N)
    (agg X : FVec Ideal ⟨2, ![M, K]⟩ .f32) (mx : FVec Ideal ⟨2, ![M, 1]⟩ .f32) (Wl Wr : FVec Ideal ⟨2, ![K, N]⟩ .f32)
    (b : FVec Ideal ⟨1, ![N]⟩ .f32)
    (hmx : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral D none (Host.divf (F := Ideal) agg (broadcastInDim ⟨2, ![M, K]⟩ ![0, 1] hmx mx)) Wl)
            (Host.dotGeneral D none X Wr))
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = hiddenArr (meanRows agg mx) X Wl Wr (rowOf b) := by
  rw [pre_host_eq D hD agg X mx Wl Wr b hmx h1 h2]
  funext j
  obtain ⟨r, f, rfl⟩ : ∃ (r : Fin M) (f : Fin N), j = ix2 r f := ⟨j 0, j 1, eq_ix2 j⟩
  show max (preArr _ _ _ _ _ (ix2 r f)) (broadcastInDim _ _ h0 _ (ix2 r f)) = _
  rw [LibInDimRows.scalar_spread_apply h0 _ (ix2 r f)]
  rfl

/-! ## The kernel's whole-array functions: the layer of every node from the rows scaled by a reciprocal column -/

/-- The rectified layer of every node with the aggregate's row r scaled by entry r of the column inv; the weights may be
    of any float format. -/
def scaledHidden {M K N : ℕ} {φ₃ φ₄ : FTy} (A X : FVec Ideal ⟨2, ![M, K]⟩ .f32) (inv : FVec Ideal ⟨2, ![M, 1]⟩ .f32)
    (wl : FVec Ideal ⟨2, ![K, N]⟩ φ₃) (wr : FVec Ideal ⟨2, ![K, N]⟩ φ₄) (b : FVec Ideal ⟨2, ![1, N]⟩ .f32) :
    FVec Ideal ⟨2, ![M, N]⟩ .f32 := fun j =>
  rectified (fun d => A (ix2 (j 0) d) * inv (ix2 (j 0) (0 : Fin 1))) (fun d => X (ix2 (j 0) d))
    (fun d f => (wl (ix2 d f) : EReal)) (fun d f => (wr (ix2 d f) : EReal)) (fun f => b (ix2 0 f)) (j 1)

/-- The same layer without the rectifier. -/
def scaledPre {M K N : ℕ} {φ₃ φ₄ : FTy} (A X : FVec Ideal ⟨2, ![M, K]⟩ .f32) (inv : FVec Ideal ⟨2, ![M, 1]⟩ .f32)
    (wl : FVec Ideal ⟨2, ![K, N]⟩ φ₃) (wr : FVec Ideal ⟨2, ![K, N]⟩ φ₄) (b : FVec Ideal ⟨2, ![1, N]⟩ .f32) :
    FVec Ideal ⟨2, ![M, N]⟩ .f32 := fun j =>
  pre (fun d => A (ix2 (j 0) d) * inv (ix2 (j 0) (0 : Fin 1))) (fun d => X (ix2 (j 0) d))
    (fun d f => (wl (ix2 d f) : EReal)) (fun d f => (wr (ix2 d f) : EReal)) (fun f => b (ix2 0 f)) (j 1)

/-- With the reciprocal of the clamped degree as the scale and the weights narrowed from single precision, the scaled
    layer is the layer of the mean rows with the weights as given. -/
theorem scaledHidden_recip {M K N : ℕ} {ψ₃ ψ₄ : FTy} (A X : FVec Ideal ⟨2, ![M, K]⟩ .f32) (deg : FVec Ideal ⟨2, ![M, 1]⟩ .f32)
    (Wl Wr : FVec Ideal ⟨2, ![K, N]⟩ .f32) (h3 : ψ₃.bits < FTy.f32.bits) (h4 : ψ₄.bits < FTy.f32.bits)
    (b : FVec Ideal ⟨2, ![1, N]⟩ .f32) :
    scaledHidden A X (recipCol (clampCol deg)) (truncf ψ₃ Wl h3 : FVec Ideal ⟨2, ![K, N]⟩ ψ₃)
        (truncf ψ₄ Wr h4 : FVec Ideal ⟨2, ![K, N]⟩ ψ₄) b
      = hiddenArr (meanRows A (clampCol deg)) X Wl Wr b := by
  funext j
  unfold scaledHidden hiddenArr
  exact rectified_congr (fun d => mul_recip_clamp A deg (j 0) d) (fun _ => rfl) (fun _ _ => rfl) (fun _ _ => rfl)
    (fun _ => rfl) (j 1)

theorem scaledPre_recip {M K N : ℕ} {ψ₃ ψ₄ : FTy} (A X : FVec Ideal ⟨2, ![M, K]⟩ .f32) (deg : FVec Ideal ⟨2, ![M, 1]⟩ .f32)
    (Wl Wr : FVec Ideal ⟨2, ![K, N]⟩ .f32) (h3 : ψ₃.bits < FTy.f32.bits) (h4 : ψ₄.bits < FTy.f32.bits)
    (b : FVec Ideal ⟨2, ![1, N]⟩ .f32) :
    scaledPre A X (recipCol (clampCol deg)) (truncf ψ₃ Wl h3 : FVec Ideal ⟨2, ![K, N]⟩ ψ₃)
        (truncf ψ₄ Wr h4 : FVec Ideal ⟨2, ![K, N]⟩ ψ₄) b
      = preArr (meanRows A (clampCol deg)) X Wl Wr b := by
  funext j
  unfold scaledPre preArr
  exact pre_congr (fun d => mul_recip_clamp A deg (j 0) d) (fun _ => rfl) (fun _ _ => rfl) (fun _ _ => rfl)
    (fun _ => rfl) (j 1)

/-- Entry f of one layer and entry f' of another agree when the rows agree and column f of the first weights is column
    f' of the second, bias included (a head read out of weights laid side by side). -/
theorem pre_pick {K N N' : ℕ} (a a' x x' : Fin K → EReal) (Wl Wr : Fin K → Fin N → EReal) (Wl' Wr' : Fin K → Fin N' → EReal)
    (b : Fin N → EReal) (b' : Fin N' → EReal) (f : Fin N) (f' : Fin N') (ha : ∀ d, a d = a' d) (hx : ∀ d, x d = x' d)
    (hl : ∀ d, Wl d f = Wl' d f') (hr : ∀ d, Wr d f = Wr' d f') (hb : b f = b' f') :
    pre a x Wl Wr b f = pre a' x' Wl' Wr' b' f' := by
  unfold pre
  have h1 : (∑ d : Fin K, a d * Wl d f) = ∑ d : Fin K, a' d * Wl' d f' :=
    Finset.sum_congr rfl fun d _ => by rw [ha d, hl d]
  have h2 : (∑ d : Fin K, x d * Wr d f) = ∑ d : Fin K, x' d * Wr' d f' :=
    Finset.sum_congr rfl fun d _ => by rw [hx d, hr d]
  rw [h1, h2, hb]

/-! ## The host's clamp and reciprocal of the degree column -/

/-- The host's maximum of the degree column with a one spread down the column is the clamped column. -/
theorem clamp_host_eq {M : ℕ} (deg : FVec Ideal ⟨2, ![M, 1]⟩ .f32)
    (h : (⟨0, ![]⟩ : Shape).BroadcastsInDim ⟨2, ![M, 1]⟩ ![]) :
    maximumf deg (broadcastInDim ⟨2, ![M, 1]⟩ ![] h (constant (F := Ideal) ⟨0, ![]⟩ .f32 0x3F800000#32)) = clampCol deg := by
  funext j
  show max (deg j) (broadcastInDim _ _ h _ j) = _
  rw [LibInDimRows.scalar_spread_apply h _ j]
  rfl

/-- The host's quotient of a one spread down the column by the clamped column is the reciprocal column. -/
theorem recip_host_eq {M : ℕ} (mx : FVec Ideal ⟨2, ![M, 1]⟩ .f32)
    (h : (⟨0, ![]⟩ : Shape).BroadcastsInDim ⟨2, ![M, 1]⟩ ![]) :
    Host.divf (F := Ideal) (broadcastInDim ⟨2, ![M, 1]⟩ ![] h (constant (F := Ideal) ⟨0, ![]⟩ .f32 0x3F800000#32)) mx
      = recipCol mx := by
  funext j
  show Ideal.div (broadcastInDim _ _ h _ j) (mx j) = _
  rw [LibInDimRows.scalar_spread_apply h _ j]
  rfl

end Cert.LibMeanLayers

end
-- ==== Proof.FirstLayer.lean ====
/-
  The first graph layer's region: what its result array holds, as one function of the arrays it reads.

  The kernel works on blocks of 10000 nodes: at grid point t it reads rows 10000·t … 10000·t + 9999 of the aggregated
  features, of the reciprocal-degree column and of the nodes' own features, the two weight matrices and the bias row
  whole, and writes rows 10000·t … 10000·t + 9999 of the result.  Entry (p, f) of the block it writes is the layer's row
  function of block row p, which is row 10000·t + p of the arrays; so the block is the matching block of ONE function of
  the whole arrays.  The five blocks tile the 50000 rows (row r lies in block r / 10000), and the result array ends
  holding that function.  All of it for any contents V of the buffers when the region is entered.
-/
import proofs.«177177_j69475390980563_2_alg».proof.Proof.Gen.KernelIdeal.Frame
import proofs.«177177_j69475390980563_2_alg».proof.Proof.LibMeanLayers
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.FirstLayer

open Cert.KernelIdeal Cert.KernelIdeal.Gen Cert.LibMeanLayers Cert.LibSageLayers

variable (V : (c : Dev nD) → (b : Ref sig .tc) → Buf (Elt Ideal) ((c : Thread nD τ).loc b))

theorem hz : (![0, 0] : Fin 2 → Nat) = fun _ => 0 := funext fun a => by fin_cases a <;> rfl

/-- What the body stores, at block entry (p, f): the layer's row function of block row p. -/
theorem payload_apply (x0 : FVec Ideal S10000x128 .f32) (x1 : FVec Ideal S10000x1 .f32) (x2 : FVec Ideal S10000x128 .f32)
    (x3 x4 : FVec Ideal S128x117 .bf16) (x5 : FVec Ideal S1x117 .f32) (p : Fin 10000) (f : Fin 117) :
    k0_pay1 (F := Ideal) x0 x1 x2 x3 x4 x5 (ix2 p f)
      = rectified (fun d => x0 (ix2 p d) * x1 (ix2 p (0 : Fin 1))) (fun d => x2 (ix2 p d))
          (fun d f => (x3 (ix2 d f) : EReal)) (fun d f => (x4 (ix2 d f) : EReal)) (fun f => x5 (ix2 0 f)) f := by
  unfold k0_pay1
  exact rectified_block_apply dot_S10000x128_S128x117_S10000x117_1_0_0_1_n_n rfl _ _ x3 x4 x5 _ _ _ _
    (fun p d => x0 (ix2 p d) * x1 (ix2 p (0 : Fin 1))) (fun p d => x2 (ix2 p d))
    (fun p d => scaled_apply x0 x1 _ _ _ _ p d) (fun _ _ => rfl) p f

/-- The layer of every node as one function of the arrays the region finds. -/
def layerArr (c : Dev nD) : FVec Ideal S50000x117 .f32 :=
  scaledHidden (M := 50000) (K := 128) (N := 117) (φ₃ := .bf16) (φ₄ := .bf16) (V c main_v25) (V c main_arg0) (V c main_v11) (V c main_v12) (V c main_v13) (V c main_v26)

/-- The printed index maps over the grid: the node windows move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Block row p of the aggregated features at point t is row 10000·t + p. -/
theorem agg_block (c : Dev nD) (t : Fin cfg0.N) (p : Fin 10000) (d : Fin 128) (r : Fin 50000) (hr : r.val = t.val * 10000 + p.val) :
    (iblk0 V c 0 t : FVec Ideal S10000x128 .f32) (ix2 p d) = (V c main_v25 : FVec Ideal S50000x128 .f32) (ix2 r d) := by
  obtain ⟨e0, e1, -⟩ := idx_facts t
  unfold iblk0
  rw [View.read_apply]
  show V c main_v25 _ = V c main_v25 _
  refine congrArg (V c main_v25) (funext fun a => Fin.ext ?_)
  match a with
  | ⟨0, _⟩ => show win0_0.index t (0 : Fin 2) * 10000 + 1 * p.val = r.val; rw [e0, hr]; omega
  | ⟨1, _⟩ => show win0_0.index t (1 : Fin 2) * 128 + 1 * d.val = d.val; rw [e1]; omega

/-- Block row p of the reciprocal-degree column. -/
theorem inv_block (c : Dev nD) (t : Fin cfg0.N) (p : Fin 10000) (r : Fin 50000) (hr : r.val = t.val * 10000 + p.val) :
    (iblk0 V c 1 t : FVec Ideal S10000x1 .f32) (ix2 p (0 : Fin 1)) = (V c main_v11 : FVec Ideal S50000x1 .f32) (ix2 r (0 : Fin 1)) := by
  obtain ⟨-, -, e0, e1, -⟩ := idx_facts t
  unfold iblk0
  rw [View.read_apply]
  show V c main_v11 _ = V c main_v11 _
  refine congrArg (V c main_v11) (funext fun a => Fin.ext ?_)
  match a with
  | ⟨0, _⟩ => show win0_1.index t (0 : Fin 2) * 10000 + 1 * p.val = r.val; rw [e0, hr]; omega
  | ⟨1, _⟩ => show win0_1.index t (1 : Fin 2) * 1 + 1 * 0 = 0; rw [e1]

/-- Block row p of the nodes' own features. -/
theorem own_block (c : Dev nD) (t : Fin cfg0.N) (p : Fin 10000) (d : Fin 128) (r : Fin 50000) (hr : r.val = t.val * 10000 + p.val) :
    (iblk0 V c 2 t : FVec Ideal S10000x128 .f32) (ix2 p d) = (V c main_arg0 : FVec Ideal S50000x128 .f32) (ix2 r d) := by
  obtain ⟨-, -, -, -, e0, e1, -⟩ := idx_facts t
  unfold iblk0
  rw [View.read_apply]
  show V c main_arg0 _ = V c main_arg0 _
  refine congrArg (V c main_arg0) (funext fun a => Fin.ext ?_)
  match a with
  | ⟨0, _⟩ => show win0_2.index t (0 : Fin 2) * 10000 + 1 * p.val = r.val; rw [e0, hr]; omega
  | ⟨1, _⟩ => show win0_2.index t (1 : Fin 2) * 128 + 1 * d.val = d.val; rw [e1]; omega

/-- The neighbour weights are read whole at every point. -/
theorem wl_block (c : Dev nD) (t : Fin cfg0.N) (d : Fin 128) (f : Fin 117) :
    (iblk0 V c 3 t : FVec Ideal S128x117 .bf16) (ix2 d f) = (V c main_v12 : FVec Ideal S128x117 .bf16) (ix2 d f) := by
  obtain ⟨-, -, -, -, -, -, e0, e1, -⟩ := idx_facts t
  unfold iblk0
  rw [View.read_apply]
  show V c main_v12 _ = V c main_v12 _
  refine congrArg (V c main_v12) (funext fun a => Fin.ext ?_)
  match a with
  | ⟨0, _⟩ => show win0_3.index t (0 : Fin 2) * 128 + 1 * d.val = d.val; rw [e0]; omega
  | ⟨1, _⟩ => show win0_3.index t (1 : Fin 2) * 117 + 1 * f.val = f.val; rw [e1]; omega

/-- The root weights are read whole at every point. -/
theorem wr_block (c : Dev nD) (t : Fin cfg0.N) (d : Fin 128) (f : Fin 117) :
    (iblk0 V c 4 t : FVec Ideal S128x117 .bf16) (ix2 d f) = (V c main_v13 : FVec Ideal S128x117 .bf16) (ix2 d f) := by
  obtain ⟨-, -, -, -, -, -, -, -, e0, e1, -⟩ := idx_facts t
  unfold iblk0
  rw [View.read_apply]
  show V c main_v13 _ = V c main_v13 _
  refine congrArg (V c main_v13) (funext fun a => Fin.ext ?_)
  match a with
  | ⟨0, _⟩ => show win0_4.index t (0 : Fin 2) * 128 + 1 * d.val = d.val; rw [e0]; omega
  | ⟨1, _⟩ => show win0_4.index t (1 : Fin 2) * 117 + 1 * f.val = f.val; rw [e1]; omega

/-- The bias row is read whole at every point. -/
theorem bias_block (c : Dev nD) (t : Fin cfg0.N) (f : Fin 117) :
    (iblk0 V c 5 t : FVec Ideal S1x117 .f32) (ix2 (0 : Fin 1) f) = (V c main_v26 : FVec Ideal S1x117 .f32) (ix2 (0 : Fin 1) f) := by
  obtain ⟨-, -, -, -, -, -, -, -, -, -, e0, e1, -⟩ := idx_facts t
  unfold iblk0
  rw [View.read_apply]
  show V c main_v26 _ = V c main_v26 _
  refine congrArg (V c main_v26) (funext fun a => Fin.ext ?_)
  match a with
  | ⟨0, _⟩ => show win0_5.index t (0 : Fin 2) * 1 + 1 * 0 = 0; rw [e0]
  | ⟨1, _⟩ => show win0_5.index t (1 : Fin 2) * 117 + 1 * f.val = f.val; rw [e1]; omega

/-- What point t writes back is block t of the layer of every node. -/
theorem flushed_eq (c : Dev nD) (t : Fin cfg0.N) :
    (dat0 V c).flushed 6 t = ((cfg0.win 6).blk t).view.read (Elt Ideal) (layerArr V c) := by
  show (cfg0.win 6).cut (grid0.coords t) ((dat0 V c).after 6 t) = _
  rw [after0_6]
  unfold out0_6
  rw [View.canon_unit_zero hz]
  simp only [View.ld_unit_zero (S := S10000x128) hz, View.ld_unit_zero (S := S10000x1) hz, View.ld_unit_zero (S := S128x117) hz,
    View.ld_unit_zero (S := S1x117) hz]
  obtain ⟨-, -, -, -, -, -, -, -, -, -, -, -, e0, e1⟩ := idx_facts t
  refine funext fun (y : S10000x117.Idx) => ?_
  obtain ⟨p, f, rfl⟩ : ∃ (p : Fin 10000) (f : Fin 117), y = ix2 p f := ⟨y 0, y 1, eq_ix2 y⟩
  have hN : cfg0.N = 5 := N_0
  have hrlt : t.val * 10000 + p.val < 50000 := by have := t.isLt; have := p.isLt; omega
  have hemb : ((cfg0.win 6).blk t).view.emb (ix2 p f) = ix2 (⟨t.val * 10000 + p.val, hrlt⟩ : Fin 50000) f := by
    funext a; apply Fin.ext
    match a with
    | ⟨0, _⟩ => show win0_6.index t (0 : Fin 2) * 10000 + 1 * p.val = t.val * 10000 + p.val; rw [e0]; omega
    | ⟨1, _⟩ => show win0_6.index t (1 : Fin 2) * 117 + 1 * f.val = f.val; rw [e1]; omega
  show k0_pay1 (F := Ideal) (iblk0 V c 0 t) (iblk0 V c 1 t) (iblk0 V c 2 t) (iblk0 V c 3 t) (iblk0 V c 4 t) (iblk0 V c 5 t) (ix2 p f)
    = layerArr V c (((cfg0.win 6).blk t).view.emb (ix2 p f))
  rw [hemb]
  refine (payload_apply _ _ _ _ _ _ p f).trans ?_
  exact rectified_congr
    (fun d => by rw [agg_block V c t p d ⟨t.val * 10000 + p.val, hrlt⟩ rfl, inv_block V c t p ⟨t.val * 10000 + p.val, hrlt⟩ rfl])
    (fun d => own_block V c t p d ⟨t.val * 10000 + p.val, hrlt⟩ rfl)
    (fun d f => wl_block V c t d f) (fun d f => wr_block V c t d f) (fun f => bias_block V c t f) f

/-- An index of the result array lies in point t's block iff each coordinate is in the block's range. -/
theorem mem_blk (t : Fin cfg0.N) (i : S50000x117.Idx) :
    i ∈ ((cfg0.win 6).blk t).view.set ↔ ∀ a : Fin 2, win0_6.index t a * S10000x117.size a ≤ (i a).val ∧ (i a).val < win0_6.index t a * S10000x117.size a + S10000x117.size a := by
  show i ∈ ((View.whole main_v27).slice (win0_6.rect t)).set ↔ _
  rw [View.set_slice_whole, Rect.mem_set_unit]
  exact Iff.rfl

/-- Every row of the result lies in the block of the point r / 10000. -/
theorem cover (i : S50000x117.Idx) : ∃ t : Fin cfg0.N, (cfg0.win 6).flush t = true ∧ i ∈ ((cfg0.win 6).blk t).view.set := by
  have hi0 : (i 0).val < 50000 := (i 0).isLt
  have hi1 : (i 1).val < 117 := (i 1).isLt
  have hN : cfg0.N = 5 := N_0
  have ht : (i 0).val / 10000 < cfg0.N := by omega
  obtain ⟨-, -, -, -, -, -, -, -, -, -, -, -, e0, e1⟩ := idx_facts ⟨(i 0).val / 10000, ht⟩
  refine ⟨⟨(i 0).val / 10000, ht⟩, flush0_6 _, ?_⟩
  rw [mem_blk]
  intro a
  match a with
  | ⟨0, _⟩ =>
    show win0_6.index ⟨(i 0).val / 10000, ht⟩ (0 : Fin 2) * 10000 ≤ (i 0).val ∧ (i 0).val < win0_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_6.index ⟨(i 0).val / 10000, ht⟩ (1 : Fin 2) * 117 ≤ (i 1).val ∧ (i 1).val < win0_6.index ⟨(i 0).val / 10000, ht⟩ (1 : Fin 2) * 117 + 117
    rw [e1]; omega

/-- After the region the result array holds the layer of every node. -/
theorem final (c : Dev nD) : (dat0 V c).arrAt 6 cfg0.N = layerArr V c :=
  (dat0 V c).arrAt_eq_of_cover 6 (layerArr V c) (fun t _ => flushed_eq V c t) cover

end Cert.KernelIdeal.FirstLayer

end
-- ==== Proof.SecondLayer.lean ====
/-
  The second graph layer's region: what its result array holds, as one function of the arrays it reads.

  The kernel works on blocks of 10000 nodes: at grid point t it reads rows 10000·t … 10000·t + 9999 of the aggregated
  features, of the reciprocal-degree column and of the nodes' own features, the two weight matrices and the bias row
  whole, and writes rows 10000·t … 10000·t + 9999 of the result.  Entry (p, f) of the block it writes is the layer's row
  function of block row p, which is row 10000·t + p of the arrays; so the block is the matching block of ONE function of
  the whole arrays.  The five blocks tile the 50000 rows (row r lies in block r / 10000), and the result array ends
  holding that function.  All of it for any contents V of the buffers when the region is entered.
-/
import proofs.«177177_j69475390980563_2_alg».proof.Proof.Gen.KernelIdeal.Frame
import proofs.«177177_j69475390980563_2_alg».proof.Proof.LibMeanLayers
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.SecondLayer

open Cert.KernelIdeal Cert.KernelIdeal.Gen Cert.LibMeanLayers Cert.LibSageLayers

variable (V : (c : Dev nD) → (b : Ref sig .tc) → Buf (Elt Ideal) ((c : Thread nD τ).loc b))

theorem hz : (![0, 0] : Fin 2 → Nat) = fun _ => 0 := funext fun a => by fin_cases a <;> rfl

/-- What the body stores, at block entry (p, f): the layer's row function of block row p. -/
theorem payload_apply (x0 : FVec Ideal S10000x117 .f32) (x1 : FVec Ideal S10000x1 .f32) (x2 : FVec Ideal S10000x117 .f32)
    (x3 x4 : FVec Ideal S117x42 .bf16) (x5 : FVec Ideal S1x42 .f32) (p : Fin 10000) (f : Fin 42) :
    k1_pay1 (F := Ideal) x0 x1 x2 x3 x4 x5 (ix2 p f)
      = rectified (fun d => x0 (ix2 p d) * x1 (ix2 p (0 : Fin 1))) (fun d => x2 (ix2 p d))
          (fun d f => (x3 (ix2 d f) : EReal)) (fun d f => (x4 (ix2 d f) : EReal)) (fun f => x5 (ix2 0 f)) f := by
  unfold k1_pay1
  exact rectified_block_apply dot_S10000x117_S117x42_S10000x42_1_0_0_1_n_n rfl _ _ x3 x4 x5 _ _ _ _
    (fun p d => x0 (ix2 p d) * x1 (ix2 p (0 : Fin 1))) (fun p d => x2 (ix2 p d))
    (fun p d => scaled_apply x0 x1 _ _ _ _ p d) (fun p d => congrFun (shapeCast_self x2 _) (ix2 p d)) p f

/-- The layer of every node as one function of the arrays the region finds. -/
def layerArr (c : Dev nD) : FVec Ideal S50000x42 .f32 :=
  scaledHidden (M := 50000) (K := 117) (N := 42) (φ₃ := .bf16) (φ₄ := .bf16) (V c main_v37) (V c main_v27) (V c main_v11) (V c main_v14) (V c main_v15) (V c main_v38)

/-- The printed index maps over the grid: the node windows move with the point, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Block row p of the aggregated features at point t is row 10000·t + p. -/
theorem agg_block (c : Dev nD) (t : Fin cfg1.N) (p : Fin 10000) (d : Fin 117) (r : Fin 50000) (hr : r.val = t.val * 10000 + p.val) :
    (iblk1 V c 0 t : FVec Ideal S10000x117 .f32) (ix2 p d) = (V c main_v37 : FVec Ideal S50000x117 .f32) (ix2 r d) := by
  obtain ⟨e0, e1, -⟩ := idx_facts t
  unfold iblk1
  rw [View.read_apply]
  show V c main_v37 _ = V c main_v37 _
  refine congrArg (V c main_v37) (funext fun a => Fin.ext ?_)
  match a with
  | ⟨0, _⟩ => show win1_0.index t (0 : Fin 2) * 10000 + 1 * p.val = r.val; rw [e0, hr]; omega
  | ⟨1, _⟩ => show win1_0.index t (1 : Fin 2) * 117 + 1 * d.val = d.val; rw [e1]; omega

/-- Block row p of the reciprocal-degree column. -/
theorem inv_block (c : Dev nD) (t : Fin cfg1.N) (p : Fin 10000) (r : Fin 50000) (hr : r.val = t.val * 10000 + p.val) :
    (iblk1 V c 1 t : FVec Ideal S10000x1 .f32) (ix2 p (0 : Fin 1)) = (V c main_v11 : FVec Ideal S50000x1 .f32) (ix2 r (0 : Fin 1)) := by
  obtain ⟨-, -, e0, e1, -⟩ := idx_facts t
  unfold iblk1
  rw [View.read_apply]
  show V c main_v11 _ = V c main_v11 _
  refine congrArg (V c main_v11) (funext fun a => Fin.ext ?_)
  match a with
  | ⟨0, _⟩ => show win1_1.index t (0 : Fin 2) * 10000 + 1 * p.val = r.val; rw [e0, hr]; omega
  | ⟨1, _⟩ => show win1_1.index t (1 : Fin 2) * 1 + 1 * 0 = 0; rw [e1]

/-- Block row p of the nodes' own features. -/
theorem own_block (c : Dev nD) (t : Fin cfg1.N) (p : Fin 10000) (d : Fin 117) (r : Fin 50000) (hr : r.val = t.val * 10000 + p.val) :
    (iblk1 V c 2 t : FVec Ideal S10000x117 .f32) (ix2 p d) = (V c main_v27 : FVec Ideal S50000x117 .f32) (ix2 r d) := by
  obtain ⟨-, -, -, -, e0, e1, -⟩ := idx_facts t
  unfold iblk1
  rw [View.read_apply]
  show V c main_v27 _ = V c main_v27 _
  refine congrArg (V c main_v27) (funext fun a => Fin.ext ?_)
  match a with
  | ⟨0, _⟩ => show win1_2.index t (0 : Fin 2) * 10000 + 1 * p.val = r.val; rw [e0, hr]; omega
  | ⟨1, _⟩ => show win1_2.index t (1 : Fin 2) * 117 + 1 * d.val = d.val; rw [e1]; omega

/-- The neighbour weights are read whole at every point. -/
theorem wl_block (c : Dev nD) (t : Fin cfg1.N) (d : Fin 117) (f : Fin 42) :
    (iblk1 V c 3 t : FVec Ideal S117x42 .bf16) (ix2 d f) = (V c main_v14 : FVec Ideal S117x42 .bf16) (ix2 d f) := by
  obtain ⟨-, -, -, -, -, -, e0, e1, -⟩ := idx_facts t
  unfold iblk1
  rw [View.read_apply]
  show V c main_v14 _ = V c main_v14 _
  refine congrArg (V c main_v14) (funext fun a => Fin.ext ?_)
  match a with
  | ⟨0, _⟩ => show win1_3.index t (0 : Fin 2) * 117 + 1 * d.val = d.val; rw [e0]; omega
  | ⟨1, _⟩ => show win1_3.index t (1 : Fin 2) * 42 + 1 * f.val = f.val; rw [e1]; omega

/-- The root weights are read whole at every point. -/
theorem wr_block (c : Dev nD) (t : Fin cfg1.N) (d : Fin 117) (f : Fin 42) :
    (iblk1 V c 4 t : FVec Ideal S117x42 .bf16) (ix2 d f) = (V c main_v15 : FVec Ideal S117x42 .bf16) (ix2 d f) := by
  obtain ⟨-, -, -, -, -, -, -, -, e0, e1, -⟩ := idx_facts t
  unfold iblk1
  rw [View.read_apply]
  show V c main_v15 _ = V c main_v15 _
  refine congrArg (V c main_v15) (funext fun a => Fin.ext ?_)
  match a with
  | ⟨0, _⟩ => show win1_4.index t (0 : Fin 2) * 117 + 1 * d.val = d.val; rw [e0]; omega
  | ⟨1, _⟩ => show win1_4.index t (1 : Fin 2) * 42 + 1 * f.val = f.val; rw [e1]; omega

/-- The bias row is read whole at every point. -/
theorem bias_block (c : Dev nD) (t : Fin cfg1.N) (f : Fin 42) :
    (iblk1 V c 5 t : FVec Ideal S1x42 .f32) (ix2 (0 : Fin 1) f) = (V c main_v38 : FVec Ideal S1x42 .f32) (ix2 (0 : Fin 1) f) := by
  obtain ⟨-, -, -, -, -, -, -, -, -, -, e0, e1, -⟩ := idx_facts t
  unfold iblk1
  rw [View.read_apply]
  show V c main_v38 _ = V c main_v38 _
  refine congrArg (V c main_v38) (funext fun a => Fin.ext ?_)
  match a with
  | ⟨0, _⟩ => show win1_5.index t (0 : Fin 2) * 1 + 1 * 0 = 0; rw [e0]
  | ⟨1, _⟩ => show win1_5.index t (1 : Fin 2) * 42 + 1 * f.val = f.val; rw [e1]; omega

/-- What point t writes back is block t of the layer of every node. -/
theorem flushed_eq (c : Dev nD) (t : Fin cfg1.N) :
    (dat1 V c).flushed 6 t = ((cfg1.win 6).blk t).view.read (Elt Ideal) (layerArr V c) := by
  show (cfg1.win 6).cut (grid1.coords t) ((dat1 V c).after 6 t) = _
  rw [after1_6]
  unfold out1_6
  rw [View.canon_unit_zero hz]
  simp only [View.ld_unit_zero (S := S10000x117) hz, View.ld_unit_zero (S := S10000x1) hz, View.ld_unit_zero (S := S117x42) hz,
    View.ld_unit_zero (S := S1x42) hz]
  obtain ⟨-, -, -, -, -, -, -, -, -, -, -, -, e0, e1⟩ := idx_facts t
  refine funext fun (y : S10000x42.Idx) => ?_
  obtain ⟨p, f, rfl⟩ : ∃ (p : Fin 10000) (f : Fin 42), y = ix2 p f := ⟨y 0, y 1, eq_ix2 y⟩
  have hN : cfg1.N = 5 := N_1
  have hrlt : t.val * 10000 + p.val < 50000 := by have := t.isLt; have := p.isLt; omega
  have hemb : ((cfg1.win 6).blk t).view.emb (ix2 p f) = ix2 (⟨t.val * 10000 + p.val, hrlt⟩ : Fin 50000) f := by
    funext a; apply Fin.ext
    match a with
    | ⟨0, _⟩ => show win1_6.index t (0 : Fin 2) * 10000 + 1 * p.val = t.val * 10000 + p.val; rw [e0]; omega
    | ⟨1, _⟩ => show win1_6.index t (1 : Fin 2) * 42 + 1 * f.val = f.val; rw [e1]; omega
  show k1_pay1 (F := Ideal) (iblk1 V c 0 t) (iblk1 V c 1 t) (iblk1 V c 2 t) (iblk1 V c 3 t) (iblk1 V c 4 t) (iblk1 V c 5 t) (ix2 p f)
    = layerArr V c (((cfg1.win 6).blk t).view.emb (ix2 p f))
  rw [hemb]
  refine (payload_apply _ _ _ _ _ _ p f).trans ?_
  exact rectified_congr
    (fun d => by rw [agg_block V c t p d ⟨t.val * 10000 + p.val, hrlt⟩ rfl, inv_block V c t p ⟨t.val * 10000 + p.val, hrlt⟩ rfl])
    (fun d => own_block V c t p d ⟨t.val * 10000 + p.val, hrlt⟩ rfl)
    (fun d f => wl_block V c t d f) (fun d f => wr_block V c t d f) (fun f => bias_block V c t f) f

/-- An index of the result array lies in point t's block iff each coordinate is in the block's range. -/
theorem mem_blk (t : Fin cfg1.N) (i : S50000x42.Idx) :
    i ∈ ((cfg1.win 6).blk t).view.set ↔ ∀ a : Fin 2, win1_6.index t a * S10000x42.size a ≤ (i a).val ∧ (i a).val < win1_6.index t a * S10000x42.size a + S10000x42.size a := by
  show i ∈ ((View.whole main_v39).slice (win1_6.rect t)).set ↔ _
  rw [View.set_slice_whole, Rect.mem_set_unit]
  exact Iff.rfl

/-- Every row of the result lies in the block of the point r / 10000. -/
theorem cover (i : S50000x42.Idx) : ∃ t : Fin cfg1.N, (cfg1.win 6).flush t = true ∧ i ∈ ((cfg1.win 6).blk t).view.set := by
  have hi0 : (i 0).val < 50000 := (i 0).isLt
  have hi1 : (i 1).val < 42 := (i 1).isLt
  have hN : cfg1.N = 5 := N_1
  have ht : (i 0).val / 10000 < cfg1.N := by omega
  obtain ⟨-, -, -, -, -, -, -, -, -, -, -, -, e0, e1⟩ := idx_facts ⟨(i 0).val / 10000, ht⟩
  refine ⟨⟨(i 0).val / 10000, ht⟩, flush1_6 _, ?_⟩
  rw [mem_blk]
  intro a
  match a with
  | ⟨0, _⟩ =>
    show win1_6.index ⟨(i 0).val / 10000, ht⟩ (0 : Fin 2) * 10000 ≤ (i 0).val ∧ (i 0).val < win1_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_6.index ⟨(i 0).val / 10000, ht⟩ (1 : Fin 2) * 42 ≤ (i 1).val ∧ (i 1).val < win1_6.index ⟨(i 0).val / 10000, ht⟩ (1 : Fin 2) * 42 + 42
    rw [e1]; omega

/-- After the region the result array holds the layer of every node. -/
theorem final (c : Dev nD) : (dat1 V c).arrAt 6 cfg1.N = layerArr V c :=
  (dat1 V c).arrAt_eq_of_cover 6 (layerArr V c) (fun t _ => flushed_eq V c t) cover

end Cert.KernelIdeal.SecondLayer

end
-- ==== Proof.HeadLayer.lean ====
/-
  The fused output layer's region (both heads side by side, no rectifier): what its result array holds, as one function of the arrays it reads.

  The kernel works on blocks of 10000 nodes: at grid point t it reads rows 10000·t … 10000·t + 9999 of the aggregated
  features, of the reciprocal-degree column and of the nodes' own features, the two weight matrices and the bias row
  whole, and writes rows 10000·t … 10000·t + 9999 of the result.  Entry (p, f) of the block it writes is the layer's row
  function of block row p, which is row 10000·t + p of the arrays; so the block is the matching block of ONE function of
  the whole arrays.  The five blocks tile the 50000 rows (row r lies in block r / 10000), and the result array ends
  holding that function.  All of it for any contents V of the buffers when the region is entered.
-/
import proofs.«177177_j69475390980563_2_alg».proof.Proof.Gen.KernelIdeal.Frame
import proofs.«177177_j69475390980563_2_alg».proof.Proof.LibMeanLayers
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HeadLayer

open Cert.KernelIdeal Cert.KernelIdeal.Gen Cert.LibMeanLayers Cert.LibSageLayers

variable (V : (c : Dev nD) → (b : Ref sig .tc) → Buf (Elt Ideal) ((c : Thread nD τ).loc b))

theorem hz : (![0, 0] : Fin 2 → Nat) = fun _ => 0 := funext fun a => by fin_cases a <;> rfl

/-- What the body stores, at block entry (p, f): the layer's row function of block row p. -/
theorem payload_apply (x0 : FVec Ideal S10000x42 .f32) (x1 : FVec Ideal S10000x1 .f32) (x2 : FVec Ideal S10000x42 .f32)
    (x3 x4 : FVec Ideal S42x128 .bf16) (x5 : FVec Ideal S1x128 .f32) (p : Fin 10000) (f : Fin 128) :
    k2_pay1 (F := Ideal) x0 x1 x2 x3 x4 x5 (ix2 p f)
      = pre (fun d => x0 (ix2 p d) * x1 (ix2 p (0 : Fin 1))) (fun d => x2 (ix2 p d))
          (fun d f => (x3 (ix2 d f) : EReal)) (fun d f => (x4 (ix2 d f) : EReal)) (fun f => x5 (ix2 0 f)) f := by
  unfold k2_pay1
  exact pre_block_apply dot_S10000x42_S42x128_S10000x128_1_0_0_1_n_n rfl _ _ x3 x4 x5 _ _ _ _
    (fun p d => x0 (ix2 p d) * x1 (ix2 p (0 : Fin 1))) (fun p d => x2 (ix2 p d))
    (fun p d => scaled_apply x0 x1 _ _ _ _ p d) (fun p d => congrFun (shapeCast_self x2 _) (ix2 p d)) p f

/-- The layer of every node as one function of the arrays the region finds. -/
def layerArr (c : Dev nD) : FVec Ideal S50000x128 .f32 :=
  scaledPre (M := 50000) (K := 42) (N := 128) (φ₃ := .bf16) (φ₄ := .bf16) (V c main_v49) (V c main_v39) (V c main_v11) (V c main_v54) (V c main_v56) (V c main_v58)

/-- The printed index maps over the grid: the node windows move with the point, the weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Block row p of the aggregated features at point t is row 10000·t + p. -/
theorem agg_block (c : Dev nD) (t : Fin cfg2.N) (p : Fin 10000) (d : Fin 42) (r : Fin 50000) (hr : r.val = t.val * 10000 + p.val) :
    (iblk2 V c 0 t : FVec Ideal S10000x42 .f32) (ix2 p d) = (V c main_v49 : FVec Ideal S50000x42 .f32) (ix2 r d) := by
  obtain ⟨e0, e1, -⟩ := idx_facts t
  unfold iblk2
  rw [View.read_apply]
  show V c main_v49 _ = V c main_v49 _
  refine congrArg (V c main_v49) (funext fun a => Fin.ext ?_)
  match a with
  | ⟨0, _⟩ => show win2_0.index t (0 : Fin 2) * 10000 + 1 * p.val = r.val; rw [e0, hr]; omega
  | ⟨1, _⟩ => show win2_0.index t (1 : Fin 2) * 42 + 1 * d.val = d.val; rw [e1]; omega

/-- Block row p of the reciprocal-degree column. -/
theorem inv_block (c : Dev nD) (t : Fin cfg2.N) (p : Fin 10000) (r : Fin 50000) (hr : r.val = t.val * 10000 + p.val) :
    (iblk2 V c 1 t : FVec Ideal S10000x1 .f32) (ix2 p (0 : Fin 1)) = (V c main_v11 : FVec Ideal S50000x1 .f32) (ix2 r (0 : Fin 1)) := by
  obtain ⟨-, -, e0, e1, -⟩ := idx_facts t
  unfold iblk2
  rw [View.read_apply]
  show V c main_v11 _ = V c main_v11 _
  refine congrArg (V c main_v11) (funext fun a => Fin.ext ?_)
  match a with
  | ⟨0, _⟩ => show win2_1.index t (0 : Fin 2) * 10000 + 1 * p.val = r.val; rw [e0, hr]; omega
  | ⟨1, _⟩ => show win2_1.index t (1 : Fin 2) * 1 + 1 * 0 = 0; rw [e1]

/-- Block row p of the nodes' own features. -/
theorem own_block (c : Dev nD) (t : Fin cfg2.N) (p : Fin 10000) (d : Fin 42) (r : Fin 50000) (hr : r.val = t.val * 10000 + p.val) :
    (iblk2 V c 2 t : FVec Ideal S10000x42 .f32) (ix2 p d) = (V c main_v39 : FVec Ideal S50000x42 .f32) (ix2 r d) := by
  obtain ⟨-, -, -, -, e0, e1, -⟩ := idx_facts t
  unfold iblk2
  rw [View.read_apply]
  show V c main_v39 _ = V c main_v39 _
  refine congrArg (V c main_v39) (funext fun a => Fin.ext ?_)
  match a with
  | ⟨0, _⟩ => show win2_2.index t (0 : Fin 2) * 10000 + 1 * p.val = r.val; rw [e0, hr]; omega
  | ⟨1, _⟩ => show win2_2.index t (1 : Fin 2) * 42 + 1 * d.val = d.val; rw [e1]; omega

/-- The neighbour weights are read whole at every point. -/
theorem wl_block (c : Dev nD) (t : Fin cfg2.N) (d : Fin 42) (f : Fin 128) :
    (iblk2 V c 3 t : FVec Ideal S42x128 .bf16) (ix2 d f) = (V c main_v54 : FVec Ideal S42x128 .bf16) (ix2 d f) := by
  obtain ⟨-, -, -, -, -, -, e0, e1, -⟩ := idx_facts t
  unfold iblk2
  rw [View.read_apply]
  show V c main_v54 _ = V c main_v54 _
  refine congrArg (V c main_v54) (funext fun a => Fin.ext ?_)
  match a with
  | ⟨0, _⟩ => show win2_3.index t (0 : Fin 2) * 42 + 1 * d.val = d.val; rw [e0]; omega
  | ⟨1, _⟩ => show win2_3.index t (1 : Fin 2) * 128 + 1 * f.val = f.val; rw [e1]; omega

/-- The root weights are read whole at every point. -/
theorem wr_block (c : Dev nD) (t : Fin cfg2.N) (d : Fin 42) (f : Fin 128) :
    (iblk2 V c 4 t : FVec Ideal S42x128 .bf16) (ix2 d f) = (V c main_v56 : FVec Ideal S42x128 .bf16) (ix2 d f) := by
  obtain ⟨-, -, -, -, -, -, -, -, e0, e1, -⟩ := idx_facts t
  unfold iblk2
  rw [View.read_apply]
  show V c main_v56 _ = V c main_v56 _
  refine congrArg (V c main_v56) (funext fun a => Fin.ext ?_)
  match a with
  | ⟨0, _⟩ => show win2_4.index t (0 : Fin 2) * 42 + 1 * d.val = d.val; rw [e0]; omega
  | ⟨1, _⟩ => show win2_4.index t (1 : Fin 2) * 128 + 1 * f.val = f.val; rw [e1]; omega

/-- The bias row is read whole at every point. -/
theorem bias_block (c : Dev nD) (t : Fin cfg2.N) (f : Fin 128) :
    (iblk2 V c 5 t : FVec Ideal S1x128 .f32) (ix2 (0 : Fin 1) f) = (V c main_v58 : FVec Ideal S1x128 .f32) (ix2 (0 : Fin 1) f) := by
  obtain ⟨-, -, -, -, -, -, -, -, -, -, e0, e1, -⟩ := idx_facts t
  unfold iblk2
  rw [View.read_apply]
  show V c main_v58 _ = V c main_v58 _
  refine congrArg (V c main_v58) (funext fun a => Fin.ext ?_)
  match a with
  | ⟨0, _⟩ => show win2_5.index t (0 : Fin 2) * 1 + 1 * 0 = 0; rw [e0]
  | ⟨1, _⟩ => show win2_5.index t (1 : Fin 2) * 128 + 1 * f.val = f.val; rw [e1]; omega

/-- What point t writes back is block t of the layer of every node. -/
theorem flushed_eq (c : Dev nD) (t : Fin cfg2.N) :
    (dat2 V c).flushed 6 t = ((cfg2.win 6).blk t).view.read (Elt Ideal) (layerArr V c) := by
  show (cfg2.win 6).cut (grid2.coords t) ((dat2 V c).after 6 t) = _
  rw [after2_6]
  unfold out2_6
  rw [View.canon_unit_zero hz]
  simp only [View.ld_unit_zero (S := S10000x42) hz, View.ld_unit_zero (S := S10000x1) hz, View.ld_unit_zero (S := S42x128) hz,
    View.ld_unit_zero (S := S1x128) hz]
  obtain ⟨-, -, -, -, -, -, -, -, -, -, -, -, e0, e1⟩ := idx_facts t
  refine funext fun (y : S10000x128.Idx) => ?_
  obtain ⟨p, f, rfl⟩ : ∃ (p : Fin 10000) (f : Fin 128), y = ix2 p f := ⟨y 0, y 1, eq_ix2 y⟩
  have hN : cfg2.N = 5 := N_2
  have hrlt : t.val * 10000 + p.val < 50000 := by have := t.isLt; have := p.isLt; omega
  have hemb : ((cfg2.win 6).blk t).view.emb (ix2 p f) = ix2 (⟨t.val * 10000 + p.val, hrlt⟩ : Fin 50000) f := by
    funext a; apply Fin.ext
    match a with
    | ⟨0, _⟩ => show win2_6.index t (0 : Fin 2) * 10000 + 1 * p.val = t.val * 10000 + p.val; rw [e0]; omega
    | ⟨1, _⟩ => show win2_6.index t (1 : Fin 2) * 128 + 1 * f.val = f.val; rw [e1]; omega
  show k2_pay1 (F := Ideal) (iblk2 V c 0 t) (iblk2 V c 1 t) (iblk2 V c 2 t) (iblk2 V c 3 t) (iblk2 V c 4 t) (iblk2 V c 5 t) (ix2 p f)
    = layerArr V c (((cfg2.win 6).blk t).view.emb (ix2 p f))
  rw [hemb]
  refine (payload_apply _ _ _ _ _ _ p f).trans ?_
  exact pre_congr
    (fun d => by rw [agg_block V c t p d ⟨t.val * 10000 + p.val, hrlt⟩ rfl, inv_block V c t p ⟨t.val * 10000 + p.val, hrlt⟩ rfl])
    (fun d => own_block V c t p d ⟨t.val * 10000 + p.val, hrlt⟩ rfl)
    (fun d f => wl_block V c t d f) (fun d f => wr_block V c t d f) (fun f => bias_block V c t f) f

/-- An index of the result array lies in point t's block iff each coordinate is in the block's range. -/
theorem mem_blk (t : Fin cfg2.N) (i : S50000x128.Idx) :
    i ∈ ((cfg2.win 6).blk t).view.set ↔ ∀ a : Fin 2, win2_6.index t a * S10000x128.size a ≤ (i a).val ∧ (i a).val < win2_6.index t a * S10000x128.size a + S10000x128.size a := by
  show i ∈ ((View.whole main_v59).slice (win2_6.rect t)).set ↔ _
  rw [View.set_slice_whole, Rect.mem_set_unit]
  exact Iff.rfl

/-- Every row of the result lies in the block of the point r / 10000. -/
theorem cover (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 5 := N_2
  have ht : (i 0).val / 10000 < cfg2.N := by omega
  obtain ⟨-, -, -, -, -, -, -, -, -, -, -, -, e0, e1⟩ := idx_facts ⟨(i 0).val / 10000, ht⟩
  refine ⟨⟨(i 0).val / 10000, ht⟩, flush2_6 _, ?_⟩
  rw [mem_blk]
  intro a
  match a with
  | ⟨0, _⟩ =>
    show win2_6.index ⟨(i 0).val / 10000, ht⟩ (0 : Fin 2) * 10000 ≤ (i 0).val ∧ (i 0).val < win2_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win2_6.index ⟨(i 0).val / 10000, ht⟩ (1 : Fin 2) * 128 ≤ (i 1).val ∧ (i 1).val < win2_6.index ⟨(i 0).val / 10000, ht⟩ (1 : Fin 2) * 128 + 128
    rw [e1]; omega

/-- After the region the result array holds the layer of every node. -/
theorem final (c : Dev nD) : (dat2 V c).arrAt 6 cfg2.N = layerArr V c :=
  (dat2 V c).arrAt_eq_of_cover 6 (layerArr V c) (fun t _ => flushed_eq V c t) cover

end Cert.KernelIdeal.HeadLayer

end
-- ==== Proof.KernelEdges.lean ====
/-
  The edge operations of the idealized kernel program, named.

  An edge array [2, 800000] holds a source node and a target node per edge.  Row 0, with a negative entry wrapped
  around by the number of nodes, says which row of a node-feature array each edge gathers; row 1 says into which node's
  row the gathered row is added.  Summing a one per edge the same way counts each node's incoming edges.  These are
  the program's own host operations, written once as functions of the two index vectors so that every layer's
  aggregation is the same function of its input.
-/
import proofs.«177177_j69475390980563_2_alg».proof.Proof.Gen.KernelIdeal
import Idealize.ShloMosaic.PureOps.Ideal

noncomputable section

namespace Cert.KernelIdeal.Edges

open Cert.KernelIdeal Idealize.ShloMosaic
open Cert.KernelIdeal.Facts₀ Cert.KernelIdeal.Facts

/-- An edge array and one of its rows as a vector. -/
abbrev EdgeArr := (⟨S2x800000, .i32⟩ : BufTy).Contents (Elt Ideal)
abbrev EdgeVec := (⟨S800000, .i32⟩ : BufTy).Contents (Elt Ideal)

/-- Row 0 of the edge array: the source node of every edge. -/
def srcOf (E : EdgeArr) : EdgeVec :=
  shapeCast S800000 (extractStridedSlice S1x800000 ![0, 0] E slices_S2x800000_S1x800000_0_0) shapeCasts_S1x800000_S800000

/-- Row 1 of the edge array: the target node of every edge. -/
def dstOf (E : EdgeArr) : EdgeVec :=
  shapeCast S800000 (extractStridedSlice S1x800000 ![1, 0] E slices_S2x800000_S1x800000_1_0) shapeCasts_S1x800000_S800000

/-- The gather's start indices: the source nodes, a negative one wrapped by 50000, as a column. -/
def gatherIdx (s : EdgeVec) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The scatter's indices: the target nodes as a column. -/
def scatterIdx (d : EdgeVec) : (⟨S800000x1, .i32⟩ : BufTy).Contents (Elt Ideal) :=
  broadcastInDim S800000x1 ![0] bcast_S800000_S800000x1_0 d

/-- The number of incoming edges of every node: a one per edge added at its target. -/
def degOf (d : EdgeVec) : FVec Ideal S50000x1 .f32 :=
  Host.scatterAdd scatter_S50000x1_S800000x1_S800000x1_1_0_0_1
    (broadcastInDim S50000x1 ![] bcast_S_S50000x1 (constant (F := Ideal) S_ .f32 0x00000000#32)) (scatterIdx d)
    (broadcastInDim S800000x1 ![] bcast_S_S800000x1 (constant (F := Ideal) S_ .f32 0x3F800000#32))

/-- The sum over incoming edges of the source rows, for rows of width 128. -/
def agg128 (s d : EdgeVec) (Y : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32)) (scatterIdx d)
    (Host.gather gather_S50000x128_S800000x1_S800000x128_1_0_n_n_0_1_1128 Y (gatherIdx s))

/-- The same for rows of width 117. -/
def agg117 (s d : EdgeVec) (Y : FVec Ideal S50000x117 .f32) : FVec Ideal S50000x117 .f32 :=
  Host.scatterAdd scatter_S50000x117_S800000x1_S800000x117_1_0_0_1
    (broadcastInDim S50000x117 ![] bcast_S_S50000x117 (constant (F := Ideal) S_ .f32 0x00000000#32)) (scatterIdx d)
    (Host.gather gather_S50000x117_S800000x1_S800000x117_1_0_n_n_0_1_1117 Y (gatherIdx s))

/-- The same for rows of width 42. -/
def agg42 (s d : EdgeVec) (Y : FVec Ideal S50000x42 .f32) : FVec Ideal S50000x42 .f32 :=
  Host.scatterAdd scatter_S50000x42_S800000x1_S800000x42_1_0_0_1
    (broadcastInDim S50000x42 ![] bcast_S_S50000x42 (constant (F := Ideal) S_ .f32 0x00000000#32)) (scatterIdx d)
    (Host.gather gather_S50000x42_S800000x1_S800000x42_1_0_n_n_0_1_142 Y (gatherIdx s))

end Cert.KernelIdeal.Edges

end
-- ==== Proof.LibConcatPair.lean ====
/-
  Two arrays laid side by side, read at an index.

  A concatenation of two pieces along an axis reads, at an index whose coordinate on that axis is `k`, the first piece at
  `k` when `k` is below the first piece's extent `a`, and otherwise the second piece at `k - a`; the other coordinates pass
  through. Stated here for the two layouts a fused pair of weight matrices and a fused pair of bias vectors have:
  matrices `[n, a]` and `[n, b]` joined along their columns into `[n, c]`, and vectors `[a]` and `[b]` joined into `[c]`.
  (`c = a + b` is part of the hypothesis `h`; the statements never need it spelt out.)
-/
import Idealize.ShloMosaic.Lib.ValueIdx
import Idealize.ShloMosaic.Lib.Pipeline.Value

namespace Idealize.ShloMosaic.ConcatPair

open Idealize.ShloMosaic Idealize.ShloMosaic.ValueIdx

variable {α : Type}

/-- Columns `[0, a)` of `[u | v]` are `u`'s. -/
theorem cols_left {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin a) (hq : q.val = k.val) :
    concatenate (⟨2, ![n, c]⟩ : Shape) 1 [⟨⟨2, ![n, a]⟩, u⟩, ⟨⟨2, ![n, b]⟩, v⟩] h (ix2 p k) = u (ix2 p q) :=
  concatenate_pair_apply_left 1 u v h (ix2 p k) rfl (ix2 p q) (fun d => by
    match d with
    | ⟨0, _⟩ => rfl
    | ⟨1, _⟩ => exact hq)

/-- Columns `[a, a + b)` of `[u | v]` are `v`'s, shifted by `a`. -/
theorem cols_right {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin b) (hq : q.val + a = k.val) :
    concatenate (⟨2, ![n, c]⟩ : Shape) 1 [⟨⟨2, ![n, a]⟩, u⟩, ⟨⟨2, ![n, b]⟩, v⟩] h (ix2 p k) = v (ix2 p q) :=
  concatenate_pair_apply_right 1 u v h (ix2 p k) rfl rfl (ix2 p q) (fun d hd => by
    match d with
    | ⟨0, _⟩ => rfl
    | ⟨1, _⟩ => exact absurd rfl hd) hq

/-- Entries `[0, a)` of the joined vector are `u`'s. -/
theorem vec_left {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin a) (hq : q.val = k.val) :
    concatenate (⟨1, ![c]⟩ : Shape) 0 [⟨⟨1, ![a]⟩, u⟩, ⟨⟨1, ![b]⟩, v⟩] h (ix1 k) = u (ix1 q) :=
  concatenate_pair_apply_left 0 u v h (ix1 k) rfl (ix1 q) (fun d => by
    match d with
    | ⟨0, _⟩ => exact hq)

/-- Entries `[a, a + b)` of the joined vector are `v`'s, shifted by `a`. -/
theorem vec_right {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin b) (hq : q.val + a = k.val) :
    concatenate (⟨1, ![c]⟩ : Shape) 0 [⟨⟨1, ![a]⟩, u⟩, ⟨⟨1, ![b]⟩, v⟩] h (ix1 k) = v (ix1 q) :=
  concatenate_pair_apply_right 0 u v h (ix1 k) rfl rfl (ix1 q) (fun d hd => by
    match d with
    | ⟨0, _⟩ => exact absurd rfl hd) hq

end Idealize.ShloMosaic.ConcatPair
-- ==== Proof.KernelStages.lean ====
/-
  The idealized kernel program's two results as functions of its arguments.

  The program's buffer contents are followed from the launch through its three regions.  Before the first region
  the host operations compute, from the edge array, the aggregated input features and the reciprocal of every node's
  clamped degree, and narrow the first two layers' weights.  The first region leaves the first layer's result; the
  operations after it aggregate that result over the same edges; the second region leaves the second layer's result;
  the operations after it aggregate once more and lay the two heads' weights side by side, padded with zero columns to
  width 128.  The third region computes both heads at once, and the two results are columns 0–23 and 24–47 of what it
  leaves.  Multiplying by the reciprocal of the clamped degree is dividing by it, narrowing a weight is the identity on
  the extended reals, and a column below 48 of the padded pair is a column of one head's matrix: so each result is the
  unrectified layer of the second layer's result with that head's weights.
-/
import proofs.«177177_j69475390980563_2_alg».proof.Proof.Gen.KernelIdeal.Frame
import proofs.«177177_j69475390980563_2_alg».proof.Proof.FirstLayer
import proofs.«177177_j69475390980563_2_alg».proof.Proof.SecondLayer
import proofs.«177177_j69475390980563_2_alg».proof.Proof.HeadLayer
import proofs.«177177_j69475390980563_2_alg».proof.Proof.KernelEdges
import proofs.«177177_j69475390980563_2_alg».proof.Proof.LibMeanLayers
import proofs.«177177_j69475390980563_2_alg».proof.Proof.LibConcatPair
import Idealize.ShloMosaic.Lib.StableHlo.Run
import Idealize.ShloMosaic.Lib.KernelVsHost
import Idealize.ShloMosaic.Lib.ValueLayout

set_option maxRecDepth 16384

noncomputable section

namespace Cert.KernelIdeal.Stages

open Cert.KernelIdeal Cert.KernelIdeal.Gen Cert.KernelIdeal.Edges Cert.LibMeanLayers Cert.LibSageLayers
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-! ## The arguments and the layers as functions of them -/

/-- An argument array as launched. -/
abbrev arg (b : Ref sig .tc) : Buf (Elt Ideal) ((c : Thread nD τ).loc b) := m ((c : Thread nD τ).loc b)

/-- The source and target node of every edge. -/
abbrev src : EdgeVec := srcOf (arg m c main_arg1)
abbrev dst : EdgeVec := dstOf (arg m c main_arg1)

/-- Every node's clamped number of incoming edges. -/
abbrev clampDeg : FVec Ideal S50000x1 .f32 := clampCol (degOf (dst m c))

/-- The first layer's result. -/
def hidden1 : FVec Ideal S50000x117 .f32 :=
  hiddenArr (meanRows (agg128 (src m c) (dst m c) (arg m c main_arg0)) (clampDeg m c)) (arg m c main_arg0)
    (arg m c main_arg2) (arg m c main_arg3) (rowOf (arg m c main_arg4))

/-- The second layer's result. -/
def hidden2 : FVec Ideal S50000x42 .f32 :=
  hiddenArr (meanRows (agg117 (src m c) (dst m c) (hidden1 m c)) (clampDeg m c)) (hidden1 m c)
    (arg m c main_arg5) (arg m c main_arg6) (rowOf (arg m c main_arg7))

/-- An output head: the unrectified layer of the second layer's result with the head's weights. -/
def head (wl wr : FVec Ideal S42x24 .f32) (b : FVec Ideal S24 .f32) : FVec Ideal S50000x24 .f32 :=
  preArr (meanRows (agg42 (src m c) (dst m c) (hidden2 m c)) (clampDeg m c)) (hidden2 m c) wl wr (rowOf b)

/-! ## Before the first region -/

theorem w1_src : W1 m ρ c (Proc.devRef .tc main_v1) = src m c := by
  show StableHlo.after hostOps0 (W0 m ρ c) _ = _
  dsimp only [hostOps0]; after_results_simp
  all_goals rfl

theorem w1_dst : W1 m ρ c (Proc.devRef .tc main_v3) = dst m c := by
  show StableHlo.after hostOps0 (W0 m ρ c) _ = _
  dsimp only [hostOps0]; after_results_simp
  all_goals rfl

theorem w1_agg : W1 m ρ c (Proc.devRef .tc main_v25) = agg128 (src m c) (dst m c) (arg m c main_arg0) := by
  show StableHlo.after hostOps0 (W0 m ρ c) _ = _
  dsimp only [hostOps0]; after_results_simp
  all_goals rfl

theorem w1_inv : W1 m ρ c (Proc.devRef .tc main_v11) = recipCol (clampDeg m c) := by
  show StableHlo.after hostOps0 (W0 m ρ c) _ = _
  dsimp only [hostOps0]; after_results_simp
  refine (recip_host_eq (M := 50000) _ bcast_S_S50000x1).trans ?_
  rw [clamp_host_eq (M := 50000) _ bcast_S_S50000x1]
  rfl

theorem w1_wl : W1 m ρ c (Proc.devRef .tc main_v12) = (truncf .bf16 (arg m c main_arg2 : FVec Ideal S128x117 .f32) bitsLt_bf16_f32 : FVec Ideal S128x117 .bf16) := by
  show StableHlo.after hostOps0 (W0 m ρ c) _ = _
  dsimp only [hostOps0]; after_results_simp
  all_goals rfl

theorem w1_wr : W1 m ρ c (Proc.devRef .tc main_v13) = (truncf .bf16 (arg m c main_arg3 : FVec Ideal S128x117 .f32) bitsLt_bf16_f32 : FVec Ideal S128x117 .bf16) := by
  show StableHlo.after hostOps0 (W0 m ρ c) _ = _
  dsimp only [hostOps0]; after_results_simp
  all_goals rfl

theorem w1_wl2 : W1 m ρ c (Proc.devRef .tc main_v14) = (truncf .bf16 (arg m c main_arg5 : FVec Ideal S117x42 .f32) bitsLt_bf16_f32 : FVec Ideal S117x42 .bf16) := by
  show StableHlo.after hostOps0 (W0 m ρ c) _ = _
  dsimp only [hostOps0]; after_results_simp
  all_goals rfl

theorem w1_wr2 : W1 m ρ c (Proc.devRef .tc main_v15) = (truncf .bf16 (arg m c main_arg6 : FVec Ideal S117x42 .f32) bitsLt_bf16_f32 : FVec Ideal S117x42 .bf16) := by
  show StableHlo.after hostOps0 (W0 m ρ c) _ = _
  dsimp only [hostOps0]; after_results_simp
  all_goals rfl

theorem w1_bias : W1 m ρ c (Proc.devRef .tc main_v26) = rowOf (arg m c main_arg4 : FVec Ideal S117 .f32) := by
  show StableHlo.after hostOps0 (W0 m ρ c) _ = _
  dsimp only [hostOps0]; after_results_simp
  exact shapeCast_eq_rowOf (N := 117) _ shapeCasts_S117_S1x117

/-- An argument no host operation before the first region writes is still as launched. -/
theorem w1_arg (b : Ref sig .tc)
    (h : StableHlo.after hostOps0 (W0 m ρ c) (Proc.devRef .tc b) = W0 m ρ c (Proc.devRef .tc b)) :
    W1 m ρ c (Proc.devRef .tc b) = arg m c b := h.trans rfl

/-! ## The first region, and up to the second -/

theorem w2_hidden1 : W2 m ρ c (Proc.devRef .tc main_v27) = hidden1 m c := by
  refine (W2_arr m ρ c 6).trans ?_
  rw [FirstLayer.final (V1 m ρ) c]
  unfold FirstLayer.layerArr
  dsimp only [V1]
  rw [w1_agg, w1_inv, w1_wl, w1_wr, w1_bias, w1_arg m ρ c main_arg0 (by dsimp only [hostOps0]; after_results_simp)]
  exact scaledHidden_recip _ _ _ _ _ _ _ _

/-- A buffer that is no array of the first region and that no operation between the first two regions writes holds
    at the second region's entry what it held at the first's. -/
theorem w3_of_w1 (b : Ref sig .tc) (h0 : ∀ w, Pipeline.arrRef spec0 w ≠ b)
    (h : StableHlo.after hostOps1 (W2 m ρ c) (Proc.devRef .tc b) = W2 m ρ c (Proc.devRef .tc b)) :
    W3 m ρ c (Proc.devRef .tc b) = W1 m ρ c (Proc.devRef .tc b) := h.trans (W2_of_ne m ρ c b h0)

theorem w3_agg : W3 m ρ c (Proc.devRef .tc main_v37) = agg117 (src m c) (dst m c) (hidden1 m c) := by
  show StableHlo.after hostOps1 (W2 m ρ c) _ = _
  dsimp only [hostOps1]; after_results_simp
  rw [w2_hidden1, (W2_of_ne m ρ c main_v1 (by decide)).trans (w1_src m ρ c),
    (W2_of_ne m ρ c main_v3 (by decide)).trans (w1_dst m ρ c)]
  rfl

/-- The reciprocal column is an input array of every region: a region leaves it as it finds it. -/
theorem w2_inv : W2 m ρ c (Proc.devRef .tc main_v11) = recipCol (clampDeg m c) :=
  (W2_arr m ρ c 1).trans ((((dat0 (V1 m ρ) c).arrAt_in 1 rfl _).trans (A_eq0 (V1 m ρ) c 1)).trans (w1_inv m ρ c))

theorem w3_inv : W3 m ρ c (Proc.devRef .tc main_v11) = recipCol (clampDeg m c) := by
  show StableHlo.after hostOps1 (W2 m ρ c) _ = _
  dsimp only [hostOps1]; after_results_simp
  exact w2_inv m ρ c

theorem w3_hidden1 : W3 m ρ c (Proc.devRef .tc main_v27) = hidden1 m c := by
  show StableHlo.after hostOps1 (W2 m ρ c) _ = _
  dsimp only [hostOps1]; after_results_simp
  exact w2_hidden1 m ρ c

theorem w3_wl : W3 m ρ c (Proc.devRef .tc main_v14) = (truncf .bf16 (arg m c main_arg5 : FVec Ideal S117x42 .f32) bitsLt_bf16_f32 : FVec Ideal S117x42 .bf16) :=
  (w3_of_w1 m ρ c main_v14 (by decide) (by dsimp only [hostOps1]; after_results_simp)).trans (w1_wl2 m ρ c)

theorem w3_wr : W3 m ρ c (Proc.devRef .tc main_v15) = (truncf .bf16 (arg m c main_arg6 : FVec Ideal S117x42 .f32) bitsLt_bf16_f32 : FVec Ideal S117x42 .bf16) :=
  (w3_of_w1 m ρ c main_v15 (by decide) (by dsimp only [hostOps1]; after_results_simp)).trans (w1_wr2 m ρ c)

theorem w3_bias : W3 m ρ c (Proc.devRef .tc main_v38) = rowOf (arg m c main_arg7 : FVec Ideal S42 .f32) := by
  show StableHlo.after hostOps1 (W2 m ρ c) _ = _
  dsimp only [hostOps1]; after_results_simp
  rw [(W2_of_ne m ρ c main_arg7 (by decide)).trans (w1_arg m ρ c main_arg7 (by dsimp only [hostOps0]; after_results_simp))]
  exact shapeCast_eq_rowOf (N := 42) _ shapeCasts_S42_S1x42

/-! ## The second region, and up to the third -/

theorem w4_hidden2 : W4 m ρ c (Proc.devRef .tc main_v39) = hidden2 m c := by
  refine (W4_arr m ρ c 6).trans ?_
  rw [SecondLayer.final (V3 m ρ) c]
  unfold SecondLayer.layerArr
  dsimp only [V3]
  rw [w3_agg, w3_inv, w3_wl, w3_wr, w3_bias, w3_hidden1]
  exact scaledHidden_recip _ _ _ _ _ _ _ _

/-- A buffer that is no array of the first two regions and that no operation between them writes holds after the
    second region what it held at the first's entry. -/
theorem w4_of_w1 (b : Ref sig .tc) (h0 : ∀ w, Pipeline.arrRef spec0 w ≠ b) (h1 : ∀ w, Pipeline.arrRef spec1 w ≠ b)
    (h : StableHlo.after hostOps1 (W2 m ρ c) (Proc.devRef .tc b) = W2 m ρ c (Proc.devRef .tc b)) :
    W4 m ρ c (Proc.devRef .tc b) = W1 m ρ c (Proc.devRef .tc b) :=
  (W4_of_ne m ρ c b h1).trans (w3_of_w1 m ρ c b h0 h)

/-- An argument array after the second region is as launched. -/
theorem w4_arg (b : Ref sig .tc) (h0 : ∀ w, Pipeline.arrRef spec0 w ≠ b) (h1 : ∀ w, Pipeline.arrRef spec1 w ≠ b)
    (h : StableHlo.after hostOps1 (W2 m ρ c) (Proc.devRef .tc b) = W2 m ρ c (Proc.devRef .tc b))
    (h' : StableHlo.after hostOps0 (W0 m ρ c) (Proc.devRef .tc b) = W0 m ρ c (Proc.devRef .tc b)) :
    W4 m ρ c (Proc.devRef .tc b) = arg m c b :=
  (w4_of_w1 m ρ c b h0 h1 h).trans (w1_arg m ρ c b h')

theorem w11_agg : W11 m ρ c (Proc.devRef .tc main_v49) = agg42 (src m c) (dst m c) (hidden2 m c) := by
  show StableHlo.after hostOps2_6 (StableHlo.after hostOps2_5 (StableHlo.after hostOps2_4 (StableHlo.after hostOps2_3 (StableHlo.after hostOps2_2 (StableHlo.after hostOps2_1 (StableHlo.after hostOps2 (W4 m ρ c))))))) (Proc.devRef .tc main_v49) = _
  dsimp only [hostOps2, hostOps2_1, hostOps2_2, hostOps2_3, hostOps2_4, hostOps2_5, hostOps2_6]
  after_results_simp
  rw [w4_hidden2, (w4_of_w1 m ρ c main_v1 (by decide) (by decide) (by dsimp only [hostOps1]; after_results_simp)).trans (w1_src m ρ c),
    (w4_of_w1 m ρ c main_v3 (by decide) (by decide) (by dsimp only [hostOps1]; after_results_simp)).trans (w1_dst m ρ c)]
  rfl

theorem w4_inv : W4 m ρ c (Proc.devRef .tc main_v11) = recipCol (clampDeg m c) :=
  (W4_arr m ρ c 1).trans ((((dat1 (V3 m ρ) c).arrAt_in 1 rfl _).trans (A_eq1 (V3 m ρ) c 1)).trans (w3_inv m ρ c))

theorem w11_inv : W11 m ρ c (Proc.devRef .tc main_v11) = recipCol (clampDeg m c) := by
  show StableHlo.after hostOps2_6 (StableHlo.after hostOps2_5 (StableHlo.after hostOps2_4 (StableHlo.after hostOps2_3 (StableHlo.after hostOps2_2 (StableHlo.after hostOps2_1 (StableHlo.after hostOps2 (W4 m ρ c))))))) (Proc.devRef .tc main_v11) = _
  dsimp only [hostOps2, hostOps2_1, hostOps2_2, hostOps2_3, hostOps2_4, hostOps2_5, hostOps2_6]
  after_results_simp
  exact w4_inv m ρ c

theorem w11_hidden2 : W11 m ρ c (Proc.devRef .tc main_v39) = hidden2 m c := by
  show StableHlo.after hostOps2_6 (StableHlo.after hostOps2_5 (StableHlo.after hostOps2_4 (StableHlo.after hostOps2_3 (StableHlo.after hostOps2_2 (StableHlo.after hostOps2_1 (StableHlo.after hostOps2 (W4 m ρ c))))))) (Proc.devRef .tc main_v39) = _
  dsimp only [hostOps2, hostOps2_1, hostOps2_2, hostOps2_3, hostOps2_4, hostOps2_5, hostOps2_6]
  after_results_simp
  exact w4_hidden2 m ρ c

/-- The two heads' matrices side by side, padded with zero columns to width 128. -/
def fusedMat (u v : FVec Ideal S42x24 .f32) : FVec Ideal S42x128 .f32 :=
  pad S42x128 ![0, 0] ![0, 80] ![0, 0] (concatenate S42x48 1 [⟨S42x24, u⟩, ⟨S42x24, v⟩] concatenates_S42x24_S42x24_S42x48_d1)
    (sitofp (F := Ideal) .f32 (constantI S_ 32 0#32)) pads_S42x48_S42x128_000_0800 h_S_

/-- The two heads' bias vectors end to end, padded with zeros to length 128. -/
def fusedVec (u v : FVec Ideal S24 .f32) : FVec Ideal S128 .f32 :=
  pad S128 ![0] ![80] ![0] (concatenate S48 0 [⟨S24, u⟩, ⟨S24, v⟩] concatenates_S24_S24_S48_d0)
    (sitofp (F := Ideal) .f32 (constantI S_ 32 0#32)) pads_S48_S128_0800 h_S_

set_option maxHeartbeats 2000000 in
theorem w11_wl : W11 m ρ c (Proc.devRef .tc main_v54)
    = (truncf .bf16 (fusedMat (arg m c main_arg8) (arg m c main_arg11)) bitsLt_bf16_f32 : FVec Ideal S42x128 .bf16) := by
  show StableHlo.after hostOps2_6 (StableHlo.after hostOps2_5 (StableHlo.after hostOps2_4 (StableHlo.after hostOps2_3 (StableHlo.after hostOps2_2 (StableHlo.after hostOps2_1 (StableHlo.after hostOps2 (W4 m ρ c))))))) (Proc.devRef .tc main_v54) = _
  dsimp only [hostOps2, hostOps2_1, hostOps2_2, hostOps2_3, hostOps2_4, hostOps2_5, hostOps2_6]
  after_results
  rw [w4_arg m ρ c main_arg8 (by decide) (by decide) (by dsimp only [hostOps1]; after_results_simp) (by dsimp only [hostOps0]; after_results_simp),
    w4_arg m ρ c main_arg11 (by decide) (by decide) (by dsimp only [hostOps1]; after_results_simp) (by dsimp only [hostOps0]; after_results_simp)]
  rfl

set_option maxHeartbeats 2000000 in
theorem w11_wr : W11 m ρ c (Proc.devRef .tc main_v56)
    = (truncf .bf16 (fusedMat (arg m c main_arg9) (arg m c main_arg12)) bitsLt_bf16_f32 : FVec Ideal S42x128 .bf16) := by
  show StableHlo.after hostOps2_6 (StableHlo.after hostOps2_5 (StableHlo.after hostOps2_4 (StableHlo.after hostOps2_3 (StableHlo.after hostOps2_2 (StableHlo.after hostOps2_1 (StableHlo.after hostOps2 (W4 m ρ c))))))) (Proc.devRef .tc main_v56) = _
  dsimp only [hostOps2, hostOps2_1, hostOps2_2, hostOps2_3, hostOps2_4, hostOps2_5, hostOps2_6]
  after_results
  rw [w4_arg m ρ c main_arg9 (by decide) (by decide) (by dsimp only [hostOps1]; after_results_simp) (by dsimp only [hostOps0]; after_results_simp),
    w4_arg m ρ c main_arg12 (by decide) (by decide) (by dsimp only [hostOps1]; after_results_simp) (by dsimp only [hostOps0]; after_results_simp)]
  rfl

set_option maxHeartbeats 2000000 in
theorem w11_bias : W11 m ρ c (Proc.devRef .tc main_v58)
    = rowOf (fusedVec (arg m c main_arg10) (arg m c main_arg13)) := by
  show StableHlo.after hostOps2_6 (StableHlo.after hostOps2_5 (StableHlo.after hostOps2_4 (StableHlo.after hostOps2_3 (StableHlo.after hostOps2_2 (StableHlo.after hostOps2_1 (StableHlo.after hostOps2 (W4 m ρ c))))))) (Proc.devRef .tc main_v58) = _
  dsimp only [hostOps2, hostOps2_1, hostOps2_2, hostOps2_3, hostOps2_4, hostOps2_5, hostOps2_6]
  after_results
  rw [w4_arg m ρ c main_arg10 (by decide) (by decide) (by dsimp only [hostOps1]; after_results_simp) (by dsimp only [hostOps0]; after_results_simp),
    w4_arg m ρ c main_arg13 (by decide) (by decide) (by dsimp only [hostOps1]; after_results_simp) (by dsimp only [hostOps0]; after_results_simp)]
  exact shapeCast_eq_rowOf (N := 128) _ shapeCasts_S128_S1x128

/-! ## The third region and the two results -/

/-- What the third region leaves: both heads at once, over the padded side-by-side weights. -/
def fusedHeads : FVec Ideal S50000x128 .f32 :=
  preArr (meanRows (agg42 (src m c) (dst m c) (hidden2 m c)) (clampDeg m c)) (hidden2 m c)
    (fusedMat (arg m c main_arg8) (arg m c main_arg11)) (fusedMat (arg m c main_arg9) (arg m c main_arg12))
    (rowOf (fusedVec (arg m c main_arg10) (arg m c main_arg13)))

theorem w12_heads : W12 m ρ c (Proc.devRef .tc main_v59) = fusedHeads m c := by
  refine (W12_arr m ρ c 6).trans ?_
  rw [HeadLayer.final (V11 m ρ) c]
  unfold HeadLayer.layerArr
  dsimp only [V11]
  rw [w11_agg, w11_inv, w11_wl, w11_wr, w11_bias, w11_hidden2]
  exact scaledPre_recip _ _ _ _ _ _ _ _

/-- Column f < 24 of the padded pair is column f of the first matrix; column 24 + f is column f of the second. -/
theorem fusedMat_left (u v : FVec Ideal S42x24 .f32) (d : Fin 42) (f : Fin 24) (f' : Fin 128) (hf : f'.val = f.val) :
    fusedMat u v (ix2 d f') = u (ix2 d f) := by
  have h48 : f.val < 48 := by have := f.isLt; omega
  unfold fusedMat
  refine (pad_apply_of_inside _ _ _ _ _ pads_S42x48_S42x128_000_0800 h_S_ (ix2 d f') (ix2 d (⟨f.val, h48⟩ : Fin 48)) fun a => ?_).trans ?_
  · match a with
    | ⟨0, _⟩ => show d.val = 0 + d.val * (0 + 1); omega
    | ⟨1, _⟩ => show f'.val = 0 + f.val * (0 + 1); omega
  · exact ConcatPair.cols_left u v concatenates_S42x24_S42x24_S42x48_d1 d ⟨f.val, h48⟩ f rfl

theorem fusedMat_right (u v : FVec Ideal S42x24 .f32) (d : Fin 42) (f : Fin 24) (f' : Fin 128) (hf : f'.val = 24 + f.val) :
    fusedMat u v (ix2 d f') = v (ix2 d f) := by
  have h48 : 24 + f.val < 48 := by have := f.isLt; omega
  unfold fusedMat
  refine (pad_apply_of_inside _ _ _ _ _ pads_S42x48_S42x128_000_0800 h_S_ (ix2 d f') (ix2 d (⟨24 + f.val, h48⟩ : Fin 48)) fun a => ?_).trans ?_
  · match a with
    | ⟨0, _⟩ => show d.val = 0 + d.val * (0 + 1); omega
    | ⟨1, _⟩ => show f'.val = 0 + (24 + f.val) * (0 + 1); omega
  · exact ConcatPair.cols_right u v concatenates_S42x24_S42x24_S42x48_d1 d ⟨24 + f.val, h48⟩ f (by show f.val + 24 = 24 + f.val; omega)

theorem fusedVec_left (u v : FVec Ideal S24 .f32) (f : Fin 24) (f' : Fin 128) (hf : f'.val = f.val) :
    fusedVec u v (ix1 f') = u (ix1 f) := by
  have h48 : f.val < 48 := by have := f.isLt; omega
  unfold fusedVec
  refine (pad_apply_of_inside _ _ _ _ _ pads_S48_S128_0800 h_S_ (ix1 f') (ix1 (⟨f.val, h48⟩ : Fin 48)) fun a => ?_).trans ?_
  · match a with
    | ⟨0, _⟩ => show f'.val = 0 + f.val * (0 + 1); omega
  · exact ConcatPair.vec_left u v concatenates_S24_S24_S48_d0 ⟨f.val, h48⟩ f rfl

theorem fusedVec_right (u v : FVec Ideal S24 .f32) (f : Fin 24) (f' : Fin 128) (hf : f'.val = 24 + f.val) :
    fusedVec u v (ix1 f') = v (ix1 f) := by
  have h48 : 24 + f.val < 48 := by have := f.isLt; omega
  unfold fusedVec
  refine (pad_apply_of_inside _ _ _ _ _ pads_S48_S128_0800 h_S_ (ix1 f') (ix1 (⟨24 + f.val, h48⟩ : Fin 48)) fun a => ?_).trans ?_
  · match a with
    | ⟨0, _⟩ => show f'.val = 0 + (24 + f.val) * (0 + 1); omega
  · exact ConcatPair.vec_right u v concatenates_S24_S24_S48_d0 ⟨24 + f.val, h48⟩ f (by show f.val + 24 = 24 + f.val; omega)

/-- The first result: columns 0–23 of the fused heads are the first head. -/
theorem w13_out0 : W13 m ρ c (Proc.devRef .tc main_v60) = head m c (arg m c main_arg8) (arg m c main_arg9) (arg m c main_arg10) := by
  show StableHlo.after hostOps3 (W12 m ρ c) _ = _
  dsimp only [hostOps3]; after_results_simp
  rw [w12_heads]
  funext j
  obtain ⟨r, f, rfl⟩ : ∃ (r : Fin 50000) (f : Fin 24), j = ix2 r f := ⟨j 0, j 1, eq_ix2 j⟩
  have h128 : f.val < 128 := by have := f.isLt; omega
  refine (extractStridedSlice_apply _ _ slices_S50000x128_S50000x24_0_0 (ix2 r f) (ix2 r (⟨f.val, h128⟩ : Fin 128)) fun a => ?_).trans ?_
  · match a with
    | ⟨0, _⟩ => show r.val = 0 + r.val; omega
    | ⟨1, _⟩ => show f.val = 0 + f.val; omega
  · unfold fusedHeads head
    rw [preArr_apply, preArr_apply]
    exact pre_pick _ _ _ _ _ _ _ _ _ _ _ _ (fun _ => rfl) (fun _ => rfl)
      (fun d => fusedMat_left _ _ d f _ rfl) (fun d => fusedMat_left _ _ d f _ rfl)
      ((rowOf_apply _ 0 _).trans ((fusedVec_left _ _ f _ rfl).trans (rowOf_apply _ 0 f).symm))

/-- The second result: columns 24–47 of the fused heads are the second head. -/
theorem w13_out1 : W13 m ρ c (Proc.devRef .tc main_v61) = head m c (arg m c main_arg11) (arg m c main_arg12) (arg m c main_arg13) := by
  show StableHlo.after hostOps3 (W12 m ρ c) _ = _
  dsimp only [hostOps3]; after_results_simp
  rw [w12_heads]
  funext j
  obtain ⟨r, f, rfl⟩ : ∃ (r : Fin 50000) (f : Fin 24), j = ix2 r f := ⟨j 0, j 1, eq_ix2 j⟩
  have h128 : 24 + f.val < 128 := by have := f.isLt; omega
  refine (extractStridedSlice_apply _ _ slices_S50000x128_S50000x24_0_24 (ix2 r f) (ix2 r (⟨24 + f.val, h128⟩ : Fin 128)) fun a => ?_).trans ?_
  · match a with
    | ⟨0, _⟩ => show r.val = 0 + r.val; omega
    | ⟨1, _⟩ => show 24 + f.val = 24 + f.val; rfl
  · unfold fusedHeads head
    rw [preArr_apply, preArr_apply]
    exact pre_pick _ _ _ _ _ _ _ _ _ _ _ _ (fun _ => rfl) (fun _ => rfl)
      (fun d => fusedMat_right _ _ d f _ rfl) (fun d => fusedMat_right _ _ d f _ rfl)
      ((rowOf_apply _ 0 _).trans ((fusedVec_right _ _ f _ rfl).trans (rowOf_apply _ 0 f).symm))

end Cert.KernelIdeal.Stages

end
-- ==== Proof.RefEdges.lean ====
/-
  The edge operations of the idealized reference program, named.

  An edge array [2, 800000] holds a source node and a target node per edge.  Row 0, with a negative entry wrapped
  around by the number of nodes, says which row of a node-feature array each edge gathers; row 1 says into which node's
  row the gathered row is added.  Summing a one per edge the same way counts each node's incoming edges.  These are
  the program's own host operations, written once as functions of the two index vectors so that every layer's
  aggregation is the same function of its input.
-/
import proofs.«177177_j69475390980563_2_alg».proof.Proof.Gen.ReferenceIdeal
import Idealize.ShloMosaic.PureOps.Ideal

noncomputable section

namespace Cert.ReferenceIdeal.Edges

open Cert.ReferenceIdeal Idealize.ShloMosaic
open Cert.ReferenceIdeal.Facts₀ Cert.ReferenceIdeal.Facts

/-- An edge array and one of its rows as a vector. -/
abbrev EdgeArr := (⟨S2x800000, .i32⟩ : BufTy).Contents (Elt Ideal)
abbrev EdgeVec := (⟨S800000, .i32⟩ : BufTy).Contents (Elt Ideal)

/-- Row 0 of the edge array: the source node of every edge. -/
def srcOf (E : EdgeArr) : EdgeVec :=
  shapeCast S800000 (extractStridedSlice S1x800000 ![0, 0] E slices_S2x800000_S1x800000_0_0) shapeCasts_S1x800000_S800000

/-- Row 1 of the edge array: the target node of every edge. -/
def dstOf (E : EdgeArr) : EdgeVec :=
  shapeCast S800000 (extractStridedSlice S1x800000 ![1, 0] E slices_S2x800000_S1x800000_1_0) shapeCasts_S1x800000_S800000

/-- The gather's start indices: the source nodes, a negative one wrapped by 50000, as a column. -/
def gatherIdx (s : EdgeVec) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The scatter's indices: the target nodes as a column. -/
def scatterIdx (d : EdgeVec) : (⟨S800000x1, .i32⟩ : BufTy).Contents (Elt Ideal) :=
  broadcastInDim S800000x1 ![0] bcast_S800000_S800000x1_0 d

/-- The number of incoming edges of every node: a one per edge added at its target. -/
def degOf (d : EdgeVec) : FVec Ideal S50000x1 .f32 :=
  Host.scatterAdd scatter_S50000x1_S800000x1_S800000x1_1_0_0_1
    (broadcastInDim S50000x1 ![] bcast_S_S50000x1 (constant (F := Ideal) S_ .f32 0x00000000#32)) (scatterIdx d)
    (broadcastInDim S800000x1 ![] bcast_S_S800000x1 (constant (F := Ideal) S_ .f32 0x3F800000#32))

/-- The sum over incoming edges of the source rows, for rows of width 128. -/
def agg128 (s d : EdgeVec) (Y : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32)) (scatterIdx d)
    (Host.gather gather_S50000x128_S800000x1_S800000x128_1_0_n_n_0_1_1128 Y (gatherIdx s))

/-- The same for rows of width 117. -/
def agg117 (s d : EdgeVec) (Y : FVec Ideal S50000x117 .f32) : FVec Ideal S50000x117 .f32 :=
  Host.scatterAdd scatter_S50000x117_S800000x1_S800000x117_1_0_0_1
    (broadcastInDim S50000x117 ![] bcast_S_S50000x117 (constant (F := Ideal) S_ .f32 0x00000000#32)) (scatterIdx d)
    (Host.gather gather_S50000x117_S800000x1_S800000x117_1_0_n_n_0_1_1117 Y (gatherIdx s))

/-- The same for rows of width 42. -/
def agg42 (s d : EdgeVec) (Y : FVec Ideal S50000x42 .f32) : FVec Ideal S50000x42 .f32 :=
  Host.scatterAdd scatter_S50000x42_S800000x1_S800000x42_1_0_0_1
    (broadcastInDim S50000x42 ![] bcast_S_S50000x42 (constant (F := Ideal) S_ .f32 0x00000000#32)) (scatterIdx d)
    (Host.gather gather_S50000x42_S800000x1_S800000x42_1_0_n_n_0_1_142 Y (gatherIdx s))

end Cert.ReferenceIdeal.Edges

end
-- ==== Proof.RefLayers.lean ====
/-
  The idealized reference, layer by layer, on the extended reals.

  The reference applies three mean-aggregating graph layers.  Each sums, for every node, the rows of its incoming
  edges' source nodes, divides the sum by the node's clamped number of incoming edges, and applies
  (mean · Wl + x · Wr) + b; the first two layers rectify.  The last is applied twice to the second layer's result with
  two sets of weights, giving the two outputs.  Read through the host operations' meaning on the extended reals each
  layer is the row function of the graph-layer library, as a whole array.
-/
import proofs.«177177_j69475390980563_2_alg».proof.Proof.Gen.ReferenceIdeal.Read
import proofs.«177177_j69475390980563_2_alg».proof.Proof.RefEdges
import proofs.«177177_j69475390980563_2_alg».proof.Proof.LibMeanLayers

set_option maxRecDepth 16384

noncomputable section

namespace Cert.ReferenceIdeal.Layers

open Cert.ReferenceIdeal Cert.ReferenceIdeal.Read Cert.ReferenceIdeal.Edges Cert.LibMeanLayers Cert.LibSageLayers
open Idealize.ShloMosaic

/-! ## The layers as functions of the argument arrays -/

/-- The clamped degree column. -/
def clampDeg (x1 : Edges.EdgeArr) : FVec Ideal S50000x1 .f32 := clampCol (degOf (dstOf x1))

/-- The first layer's result. -/
def hidden1 (x0 : FVec Ideal S50000x128 .f32) (x1 : Edges.EdgeArr) (x2 x3 : FVec Ideal S128x117 .f32) (x4 : FVec Ideal S117 .f32) : FVec Ideal S50000x117 .f32 :=
  hiddenArr (meanRows (agg128 (srcOf x1) (dstOf x1) x0) (clampDeg x1)) x0 x2 x3 (rowOf x4)

/-- The second layer's result. -/
def hidden2 (x0 : FVec Ideal S50000x128 .f32) (x1 : Edges.EdgeArr) (x2 x3 : FVec Ideal S128x117 .f32) (x4 : FVec Ideal S117 .f32) (x5 x6 : FVec Ideal S117x42 .f32) (x7 : FVec Ideal S42 .f32) : FVec Ideal S50000x42 .f32 :=
  hiddenArr (meanRows (agg117 (srcOf x1) (dstOf x1) (hidden1 x0 x1 x2 x3 x4)) (clampDeg x1)) (hidden1 x0 x1 x2 x3 x4) x5 x6 (rowOf x7)

/-- An output head: the unrectified layer of the second layer's result with the head's weights. -/
def head (x0 : FVec Ideal S50000x128 .f32) (x1 : Edges.EdgeArr) (x2 x3 : FVec Ideal S128x117 .f32) (x4 : FVec Ideal S117 .f32) (x5 x6 : FVec Ideal S117x42 .f32) (x7 : FVec Ideal S42 .f32) (wl wr : FVec Ideal S42x24 .f32) (b : FVec Ideal S24 .f32) : FVec Ideal S50000x24 .f32 :=
  preArr (meanRows (agg42 (srcOf x1) (dstOf x1) (hidden2 x0 x1 x2 x3 x4 x5 x6 x7)) (clampDeg x1)) (hidden2 x0 x1 x2 x3 x4 x5 x6 x7) wl wr (rowOf b)

/-! ## The reference's stages are these functions -/

theorem stage_hidden1 (x0 : FVec Ideal S50000x128 .f32) (x1 : Edges.EdgeArr) (x2 x3 : FVec Ideal S128x117 .f32) (x4 : FVec Ideal S117 .f32) : val_main_v28 (F := Ideal) x0 x1 x2 x3 x4 = hidden1 x0 x1 x2 x3 x4 := by
  unfold val_main_v28 val_main_v27 val_main_v24 val_main_v22 val_main_v23 val_main_v21 val_main_v20 val_main_v19 val_main_v18
    val_main_cst_3 val_main_v26 val_main_v25 val_main_call0_v0 val_main_call0_cst
  refine (hidden_host_eq dot_S50000x128_S128x117_S50000x117_1_0_0_1_n_n rfl _ x0 _ x2 x3 x4 _ _ _ _).trans ?_
  rw [clamp_host_eq]
  rfl

theorem stage_hidden2 (x0 : FVec Ideal S50000x128 .f32) (x1 : Edges.EdgeArr) (x2 x3 : FVec Ideal S128x117 .f32) (x4 : FVec Ideal S117 .f32) (x5 x6 : FVec Ideal S117x42 .f32) (x7 : FVec Ideal S42 .f32) : val_main_v53 (F := Ideal) x0 x1 x2 x3 x4 x5 x6 x7 = hidden2 x0 x1 x2 x3 x4 x5 x6 x7 := by
  unfold val_main_v53 val_main_v52 val_main_v49 val_main_v47 val_main_v48 val_main_v46 val_main_v45 val_main_v44 val_main_v43
    val_main_cst_9 val_main_v51 val_main_v50 val_main_call1_v0 val_main_call1_cst
  refine (hidden_host_eq dot_S50000x117_S117x42_S50000x42_1_0_0_1_n_n rfl _ _ _ x5 x6 x7 _ _ _ _).trans ?_
  rw [clamp_host_eq]
  unfold val_main_v38 val_main_v35
  rw [stage_hidden1]
  rfl

theorem stage_head0 (x0 : FVec Ideal S50000x128 .f32) (x1 : Edges.EdgeArr) (x2 x3 : FVec Ideal S128x117 .f32) (x4 : FVec Ideal S117 .f32) (x5 x6 : FVec Ideal S117x42 .f32) (x7 : FVec Ideal S42 .f32) (x8 x9 : FVec Ideal S42x24 .f32) (x10 : FVec Ideal S24 .f32) :
    val_main_v77 (F := Ideal) x0 x1 x2 x3 x4 x5 x6 x7 x8 x9 x10 = head x0 x1 x2 x3 x4 x5 x6 x7 x8 x9 x10 := by
  unfold val_main_v77 val_main_v74 val_main_v72 val_main_v73 val_main_v71 val_main_v70 val_main_v69 val_main_v68
    val_main_cst_15 val_main_v76 val_main_v75
  refine (pre_host_eq dot_S50000x42_S42x24_S50000x24_1_0_0_1_n_n rfl _ _ _ x8 x9 x10 _ _ _).trans ?_
  rw [clamp_host_eq]
  unfold val_main_v63 val_main_v60
  rw [stage_hidden2]
  rfl

theorem stage_head1 (x0 : FVec Ideal S50000x128 .f32) (x1 : Edges.EdgeArr) (x2 x3 : FVec Ideal S128x117 .f32) (x4 : FVec Ideal S117 .f32) (x5 x6 : FVec Ideal S117x42 .f32) (x7 : FVec Ideal S42 .f32) (x11 x12 : FVec Ideal S42x24 .f32) (x13 : FVec Ideal S24 .f32) :
    val_main_v101 (F := Ideal) x0 x1 x2 x3 x4 x5 x6 x7 x11 x12 x13 = head x0 x1 x2 x3 x4 x5 x6 x7 x11 x12 x13 := by
  unfold val_main_v101 val_main_v98 val_main_v96 val_main_v97 val_main_v95 val_main_v94 val_main_v93 val_main_v92
    val_main_cst_21 val_main_v100 val_main_v99
  refine (pre_host_eq dot_S50000x42_S42x24_S50000x24_1_0_0_1_n_n rfl _ _ _ x11 x12 x13 _ _ _).trans ?_
  rw [clamp_host_eq]
  unfold val_main_v87 val_main_v84
  rw [stage_hidden2]
  rfl

end Cert.ReferenceIdeal.Layers

end
-- ==== Proof.Bridge.lean ====
/-
  The two programs aggregate over the edges by the same operations.

  Both programs slice the same two rows out of the edge array, wrap negative source nodes the same way, gather the
  source rows and add them at the target rows, and count incoming edges by adding a one per edge.  The operations are
  printed once per program; as functions they are the same, and so are the layers built over them.
-/
import proofs.«177177_j69475390980563_2_alg».proof.Proof.KernelStages
import proofs.«177177_j69475390980563_2_alg».proof.Proof.RefLayers

set_option maxRecDepth 16384

noncomputable section

namespace Cert.Proof.Bridge

open Idealize.ShloMosaic Idealize.ShloMosaic.TcCoe Idealize.SL.Sem

theorem srcOf_eq : Cert.KernelIdeal.Edges.srcOf = Cert.ReferenceIdeal.Edges.srcOf := rfl
theorem dstOf_eq : Cert.KernelIdeal.Edges.dstOf = Cert.ReferenceIdeal.Edges.dstOf := rfl
theorem degOf_eq : Cert.KernelIdeal.Edges.degOf = Cert.ReferenceIdeal.Edges.degOf := rfl
theorem agg128_eq : Cert.KernelIdeal.Edges.agg128 = Cert.ReferenceIdeal.Edges.agg128 := rfl
theorem agg117_eq : Cert.KernelIdeal.Edges.agg117 = Cert.ReferenceIdeal.Edges.agg117 := rfl
theorem agg42_eq : Cert.KernelIdeal.Edges.agg42 = Cert.ReferenceIdeal.Edges.agg42 := rfl

variable (m : (ℓ : Loc Cert.KernelIdeal.nD Cert.KernelIdeal.τ Cert.KernelIdeal.sig) → Buf (Elt Ideal) ℓ) (c : Dev Cert.KernelIdeal.nD)

/-- The first layer's result is the same function of the arguments in both programs. -/
theorem hidden1_eq : Cert.KernelIdeal.Stages.hidden1 m c
    = Cert.ReferenceIdeal.Layers.hidden1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  unfold Cert.KernelIdeal.Stages.hidden1 Cert.ReferenceIdeal.Layers.hidden1 Cert.ReferenceIdeal.Layers.clampDeg
  dsimp only [Cert.KernelIdeal.Stages.src, Cert.KernelIdeal.Stages.dst, Cert.KernelIdeal.Stages.clampDeg, Cert.KernelIdeal.Stages.arg]
  rw [agg128_eq, srcOf_eq, dstOf_eq, degOf_eq]
  first | done | rfl

/-- So is the second layer's. -/
theorem hidden2_eq : Cert.KernelIdeal.Stages.hidden2 m c
    = Cert.ReferenceIdeal.Layers.hidden2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  unfold Cert.KernelIdeal.Stages.hidden2 Cert.ReferenceIdeal.Layers.hidden2 Cert.ReferenceIdeal.Layers.clampDeg
  dsimp only [Cert.KernelIdeal.Stages.src, Cert.KernelIdeal.Stages.dst, Cert.KernelIdeal.Stages.clampDeg, Cert.KernelIdeal.Stages.arg]
  rw [hidden1_eq, agg117_eq, srcOf_eq, dstOf_eq, degOf_eq]
  first | done | rfl

/-- And each head. -/
theorem head_eq (wl wr : FVec Ideal Cert.KernelIdeal.S42x24 .f32) (b : FVec Ideal Cert.KernelIdeal.S24 .f32) :
    Cert.KernelIdeal.Stages.head m c wl wr b
      = Cert.ReferenceIdeal.Layers.head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) wl wr b := by
  unfold Cert.KernelIdeal.Stages.head Cert.ReferenceIdeal.Layers.head Cert.ReferenceIdeal.Layers.clampDeg
  dsimp only [Cert.KernelIdeal.Stages.src, Cert.KernelIdeal.Stages.dst, Cert.KernelIdeal.Stages.clampDeg, Cert.KernelIdeal.Stages.arg]
  rw [hidden2_eq, agg42_eq, srcOf_eq, dstOf_eq, degOf_eq]
  first | done | rfl

end Cert.Proof.Bridge

end
-- ==== Proof.lean ====
/-
  A three-layer mean-aggregating graph encoder with two output heads, in a tiled kernel and in plain array code.

  Both programs take node features, an edge list and four layers' weights.  Every layer sums each node's incoming
  source rows, takes the mean by the node's number of incoming edges clamped from below by one, and applies
  (mean · Wl + x · Wr) + b; the first two layers rectify, and the last is applied with two sets of weights to give the
  two results.  The kernel program computes the reciprocal of the clamped degree once and multiplies by it, feeds its
  products narrowed weights, works on blocks of 10000 nodes, and computes both heads at once from the two heads'
  weights laid side by side and padded.  On the extended reals none of that changes a value: a product with 1 / y is a
  quotient by y for y other than zero, a narrowing is the identity, a product into zero is the plain sum of products,
  the blocks tile the rows, and a column of the padded pair is a column of one head.  So the two programs end with the
  same two arrays.  Neither the frames nor the value argument uses the finiteness of the inputs.
-/
import proofs.«177177_j69475390980563_2_alg».proof.Defs
import proofs.«177177_j69475390980563_2_alg».proof.Proof.Gen.Kernel
import proofs.«177177_j69475390980563_2_alg».proof.Proof.Gen.Kernel.Skeleton
import proofs.«177177_j69475390980563_2_alg».proof.Proof.Gen.Kernel.Launch
import proofs.«177177_j69475390980563_2_alg».proof.Proof.Gen.Kernel.Points
import proofs.«177177_j69475390980563_2_alg».proof.Proof.Gen.Kernel.Frame
import proofs.«177177_j69475390980563_2_alg».proof.Proof.Gen.KernelIdeal
import proofs.«177177_j69475390980563_2_alg».proof.Proof.Gen.KernelIdeal.Skeleton
import proofs.«177177_j69475390980563_2_alg».proof.Proof.Gen.KernelIdeal.Launch
import proofs.«177177_j69475390980563_2_alg».proof.Proof.Gen.KernelIdeal.Points
import proofs.«177177_j69475390980563_2_alg».proof.Proof.Gen.KernelIdeal.Frame
import proofs.«177177_j69475390980563_2_alg».proof.Proof.Gen.ReferenceIdeal
import proofs.«177177_j69475390980563_2_alg».proof.Proof.Gen.ReferenceIdeal.Run
import proofs.«177177_j69475390980563_2_alg».proof.Proof.Gen.ReferenceIdeal.Read
import proofs.«177177_j69475390980563_2_alg».proof.Proof.Gen.Pre_finite_inputs
import proofs.«177177_j69475390980563_2_alg».proof.Proof.KernelRun
import proofs.«177177_j69475390980563_2_alg».proof.Proof.KernelStages
import proofs.«177177_j69475390980563_2_alg».proof.Proof.RefLayers
import proofs.«177177_j69475390980563_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both idealized programs end with the two heads of the encoder, as one pair of functions of the arguments. -/
theorem algebraic : Cert.algebraic_KernelIdeal_ReferenceIdeal := by
  intro m ρ m' ρ' _ hagree
  refine ⟨fun c => Cert.KernelIdeal.Stages.head m c (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.KernelIdeal.Stages.head m c (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Stages.w13_out0 m ρ c),
        (h c).2.1.trans (Cert.KernelIdeal.Stages.w13_out1 m ρ c), (h c).2.2⟩)
      (Cert.KernelIdeal.Whole.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, -⟩ := hagree c
      rw [Cert.ReferenceIdeal.Read.val_main_v77_eq, Cert.ReferenceIdeal.Layers.stage_head0, e0, e1, e2, e3, e4, e5, e6, e7, e8, e9, e10]
      exact (Cert.Proof.Bridge.head_eq m c _ _ _).symm
    · obtain ⟨e0, e1, e2, e3, e4, e5, e6, e7, -, -, -, e11, e12, e13⟩ := hagree c
      rw [Cert.ReferenceIdeal.Read.val_main_v101_eq, Cert.ReferenceIdeal.Layers.stage_head1, e0, e1, e2, e3, e4, e5, e6, e7, e11, e12, e13]
      exact (Cert.Proof.Bridge.head_eq m c _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
